-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S5000x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S5000x1 : Shape := ⟨2, ![5000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 171
  | .vmem => 54
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000, .f32⟩
  | 28 => ⟨S50000x1, .f32⟩
  | 29 => ⟨S50000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000, .f32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S800000x1, .f32⟩
  | 96 => ⟨S800000x128, .f32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S800000x1, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S_, .f32⟩
  | 18 => ⟨S50000, .f32⟩
  | 19 => ⟨S_, .f32⟩
  | 20 => ⟨S512, .f32⟩
  | 21 => ⟨S50000x1, .i32⟩
  | 22 => ⟨S512, .f32⟩
  | 23 => ⟨S_, .f32⟩
  | 24 => ⟨S512, .f32⟩
  | 25 => ⟨S512, .f32⟩
  | 26 => ⟨S512x1, .f32⟩
  | 27 => ⟨S512x128, .f32⟩
  | 28 => ⟨S512x128, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S_, .f32⟩
  | 35 => ⟨S512x128, .f32⟩
  | 36 => ⟨S512x128, .f32⟩
  | 37 => ⟨S512x128, .f32⟩
  | 38 => ⟨S_, .f32⟩
  | 39 => ⟨S512x128, .f32⟩
  | 40 => ⟨S512x128, .f32⟩
  | 41 => ⟨S512x128, .f32⟩
  | 42 => ⟨S512x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S512x128, .f32⟩
  | .local _ .vmem, ⟨47, _⟩ => ⟨S128x128, .f32⟩
  | .local _ .vmem, ⟨48, _⟩ => ⟨S128, .f32⟩
  | .local _ .vmem, ⟨49, _⟩ => ⟨S512x128, .f32⟩
  | .local _ .vmem, ⟨50, _⟩ => ⟨S512x128, .f32⟩
  | .local _ .vmem, ⟨51, _⟩ => ⟨S128x64, .f32⟩
  | .local _ .vmem, ⟨52, _⟩ => ⟨S64, .f32⟩
  | .local _ .vmem, ⟨53, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_19 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_cst_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call0_cst : Ref sig .tc := ⟨.hbm, 166, rfl⟩
abbrev main_call0_v0 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc7_stg0_0 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc8_stg0_0 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc7_sem0_0 : DmaSem sig := 46
abbrev cc7_sem1_0 : DmaSem sig := 47
abbrev cc7_sem2_0 : DmaSem sig := 48
abbrev cc7_sem3_0 : DmaSem sig := 49
abbrev cc8_sem0_0 : DmaSem sig := 50
abbrev cc8_sem1_0 : DmaSem sig := 51
abbrev cc8_sem2_0 : DmaSem sig := 52
abbrev cc8_sem3_0 : DmaSem sig := 53

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128_S128_0 : ∀ a, (![0] : Fin 1 → Nat) a + S128.size a ≤ S128.size a
  h_S128 : 0 < S128.numel
  broadcasts_S5000x1_S5000x128 : S5000x1.Broadcasts S5000x128
  shapeCasts_S128_S1x128 : S128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S512x128.size a
  hwx7_3 : ∀ i : grid7.Coords, EltTy.bits .f32 = 32 ∨ (Rect.block (s := S512x128) S512x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64.size a ≤ S64.size a
  hwx8_2 : ∀ i : grid8.Coords, EltTy.bits .f32 = 32 ∨ (Rect.block (s := S64) S64.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S512x64.size a ≤ S512x64.size a
  hwx8_3 : ∀ i : grid8.Coords, EltTy.bits .f32 = 32 ∨ (Rect.block (s := S512x64) S512x64.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v102) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S5000x128.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v123) S512x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S512x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v124) S512x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg12) S64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S512x64.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 213
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S_, .f32⟩
  | 47 => ⟨S512x128, .f32⟩
  | 48 => ⟨S50000x1, .i32⟩
  | 49 => ⟨S512x128, .f32⟩
  | 50 => ⟨S_, .f32⟩
  | 51 => ⟨S50000, .f32⟩
  | 52 => ⟨S_, .f32⟩
  | 53 => ⟨S512, .f32⟩
  | 54 => ⟨S50000x1, .i32⟩
  | 55 => ⟨S512, .f32⟩
  | 56 => ⟨S_, .f32⟩
  | 57 => ⟨S512, .f32⟩
  | 58 => ⟨S512, .f32⟩
  | 59 => ⟨S512x1, .f32⟩
  | 60 => ⟨S512x128, .f32⟩
  | 61 => ⟨S512x128, .f32⟩
  | 62 => ⟨S512x128, .f32⟩
  | 63 => ⟨S512x128, .f32⟩
  | 64 => ⟨S_, .f32⟩
  | 65 => ⟨S512x128, .f32⟩
  | 66 => ⟨S512x128, .f32⟩
  | 67 => ⟨S_, .f32⟩
  | 68 => ⟨S512x128, .f32⟩
  | 69 => ⟨S512x128, .f32⟩
  | 70 => ⟨S512x128, .f32⟩
  | 71 => ⟨S_, .f32⟩
  | 72 => ⟨S512x128, .f32⟩
  | 73 => ⟨S512x128, .f32⟩
  | 74 => ⟨S512x128, .f32⟩
  | 75 => ⟨S1x128, .f32⟩
  | 76 => ⟨S512x128, .f32⟩
  | 77 => ⟨S512x128, .f32⟩
  | 78 => ⟨S_, .f32⟩
  | 79 => ⟨S512x128, .f32⟩
  | 80 => ⟨S512x128, .f32⟩
  | 81 => ⟨S512x64, .f32⟩
  | 82 => ⟨S1x64, .f32⟩
  | 83 => ⟨S512x64, .f32⟩
  | 84 => ⟨S512x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_22 : Ref sig .tc := ⟨.hbm, 167, rfl⟩
abbrev main_v126 : Ref sig .tc := ⟨.hbm, 168, rfl⟩
abbrev main_v127 : Ref sig .tc := ⟨.hbm, 169, rfl⟩
abbrev main_cst_23 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_24 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_25 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_27 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_28 : Ref sig .tc := ⟨.hbm, 192, rfl⟩
abbrev main_v145 : Ref sig .tc := ⟨.hbm, 193, rfl⟩
abbrev main_v146 : Ref sig .tc := ⟨.hbm, 194, rfl⟩
abbrev main_cst_29 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_call2_cst : Ref sig .tc := ⟨.hbm, 199, rfl⟩
abbrev main_call2_v0 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_call3_cst : Ref sig .tc := ⟨.hbm, 206, rfl⟩
abbrev main_call3_v0 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.Frames.lean ====
/-
  The three programs run to the end and leave their argument arrays as they found them.

  For the program as printed and for its idealization this is the statement their frame modules end with, at the
  word-level and at the extended-real float values respectively.  For the idealized reference, which is host
  operations only, the run's statement also names the result array; dropping that first conjunct leaves the
  arguments' part.
-/
import proofs.«142938_j78829829750856_1_alg».proof.Defs
import proofs.«142938_j78829829750856_1_alg».proof.Proof.Gen.Kernel
import proofs.«142938_j78829829750856_1_alg».proof.Proof.Gen.Kernel.Frame
import proofs.«142938_j78829829750856_1_alg».proof.Proof.Gen.KernelIdeal
import proofs.«142938_j78829829750856_1_alg».proof.Proof.Gen.KernelIdeal.Frame
import proofs.«142938_j78829829750856_1_alg».proof.Proof.Gen.ReferenceIdeal
import proofs.«142938_j78829829750856_1_alg».proof.Proof.Gen.ReferenceIdeal.Run
import proofs.«142938_j78829829750856_1_alg».proof.Proof.Gen.Pre_finite_inputs

noncomputable section

namespace Cert.Proof.Parts

open Idealize.ShloMosaic Idealize.SL.Sem

/-- The program as printed, on words: from any memory with zero counters every weakly fair run ends, nothing
    faults, and each of the thirteen argument arrays holds at the end what it held at the start. -/
theorem frame_kernel : Cert.frame_Kernel := fun m ρ _ => Cert.Kernel.Gen.frame m ρ

/-- The same of the idealized program, over the extended reals. -/
theorem frame_kernelIdeal : Cert.frame_KernelIdeal := fun m ρ _ => Cert.KernelIdeal.Gen.frame m ρ

/-- The same of the idealized reference: its run ends with the result array at the composed term of the
    arguments and the arguments unchanged; the second part is what is claimed here. -/
theorem frame_referenceIdeal : Cert.frame_ReferenceIdeal := fun m ρ _ =>
  (θ_run Cert.ReferenceIdeal.defs _ _).mono (fun _ h c => (h c).2) (Cert.ReferenceIdeal.Value.run (F := Ideal) m ρ)

end Cert.Proof.Parts

end
-- ==== Proof.Preserves.lean ====
/-
  The one place where the idealized program differs from the program as printed, and what is stated of it.

  In the power-transform step the printed program builds "1.0 carrying x's sign" on words: it keeps of x's word
  only the sign bit and joins that bit to the word of 1.0.  The idealized program has instead the choice between
  -1.0 and 1.0 by the comparison x < 0, which has a meaning over the extended reals.  The two agree wherever a set
  sign bit means a negative number; they part at the zero whose sign bit is set and at a not-a-number whose sign
  bit is clear.
-/
import proofs.«142938_j78829829750856_1_alg».proof.Defs

noncomputable section

namespace Cert.Proof.Parts

open Idealize.ShloMosaic

/-- The statement of the sign rule for arrays of 5000 × 128 single-precision numbers, in two halves.  Over the
    extended reals: choosing -1.0 where x < 0 and 1.0 elsewhere gives, entry by entry, -1 where x < 0 and 1
    elsewhere.  Over words: the word of 1.0 joined with x's word under the sign-bit mask is, entry by entry, the
    word of -1.0 where the top bit of x's word is set and the word of 1.0 elsewhere.  Each half holds for every
    array x; this is the rule's own theorem at this shape and format. -/
theorem preserves : Cert.preserves_Kernel_KernelIdeal :=
  IdealRules.sign_bit.statement Cert.KernelIdeal.S5000x128 .f32

end Cert.Proof.Parts

end
-- ==== Proof.KernelRun.lean ====
/-
  The idealized kernel's run, with its result named.

  The program is nine device regions among stretches of host operations.  From any memory, every weakly fair
  execution terminates without a fault; at the end every buffer outside the regions' scopes holds what the last
  of the fifteen segment boundaries says it holds.  Read at the result buffer this names the result — the contents
  of the last region's output array at that boundary — and read at the thirteen arguments it says they end as
  launched.
-/
import proofs.«142938_j78829829750856_1_alg».proof.Proof.Gen.KernelIdeal.Frame

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run : θ_run defs (onTc (τ := τ) (main (F := F))) ⟨m, fun _ => 0, ρ⟩ (fun r => ∀ c : Dev nD,
      r.2.mem ((c.tc : Thread nD τ).loc main_v125) = W15 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v125 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.Launched

end
-- ==== Proof.Spec.lean ====
/-
  The mathematics of one graph-network forward pass, array by array, over the extended reals.

  Fifty thousand nodes carry 128 features.  A layer first multiplies the feature matrix by a square weight matrix
  (`mm`), then adds to the aggregated neighbour messages the node's own row scaled by its self-loop weight and a
  bias row (`comb`), and possibly cuts the result at zero (`combRelu`).  Before pooling every entry x is replaced by
  sign(x) · (|x| + ε)² (`signedSquare`).  The pooled 512 graph rows then pass through a dense layer with a cut at
  zero (`dense`) and a last affine map onto 64 outputs (`affineOut`).

  Every function here is stated entry by entry: a matrix product is a plain finite sum, a broadcast bias is the
  bias entry of the column, the self-loop weight of a node is the one entry of its row in a one-column array.
-/
import Idealize.ShloMosaic.Lib.ValueIdx
import Idealize.ShloMosaic.PureOps.Ideal

noncomputable section

namespace Cert.Gnn

open Idealize.ShloMosaic Idealize.ShloMosaic.ValueIdx

/-- Node features: 50000 rows of 128. -/
abbrev Nodes : Shape := ⟨2, ![50000, 128]⟩
/-- A square weight matrix. -/
abbrev Sq : Shape := ⟨2, ![128, 128]⟩
/-- One number per node, as a one-column array. -/
abbrev Col : Shape := ⟨2, ![50000, 1]⟩
/-- A bias of the hidden width. -/
abbrev Bias : Shape := ⟨1, ![128]⟩
/-- Graph representations: 512 rows of 128. -/
abbrev Graphs : Shape := ⟨2, ![512, 128]⟩
/-- The last weight matrix. -/
abbrev WOut : Shape := ⟨2, ![128, 64]⟩
/-- The last bias. -/
abbrev BiasOut : Shape := ⟨1, ![64]⟩
/-- The result: 512 rows of 64. -/
abbrev Out : Shape := ⟨2, ![512, 64]⟩

/-- The value of the float word of zero. -/
abbrev zeroW : EReal := Ideal.ofBits .f32 0x00000000#32
/-- The value of the float word nearest to one millionth: the ε of the generalized mean. -/
abbrev epsW : EReal := Ideal.ofBits .f32 0x358637BD#32
/-- The value of the float word of two: the exponent of the generalized mean. -/
abbrev twoW : EReal := Ideal.ofBits .f32 0x40000000#32

/-- The product of the feature matrix with a weight matrix: entry (r, q) is the sum over k of x (r, k) · w (k, q). -/
def mm (x : Nodes.Idx → EReal) (w : Sq.Idx → EReal) : Nodes.Idx → EReal :=
  fun i => ∑ k : Fin 128, x (ix2 (i 0) k) * w (ix2 k (i 1))

/-- The combine step of a layer: aggregated messages, plus the node's own row times its self-loop weight, plus
    the bias of the column. -/
def comb (agg h : Nodes.Idx → EReal) (s : Col.Idx → EReal) (b : Bias.Idx → EReal) : Nodes.Idx → EReal :=
  fun i => (agg i + h i * s (ix2 (i 0) (0 : Fin 1))) + b (ix1 (i 1))

/-- The combine step followed by the cut at zero. -/
def combRelu (agg h : Nodes.Idx → EReal) (s : Col.Idx → EReal) (b : Bias.Idx → EReal) : Nodes.Idx → EReal :=
  fun i => max (comb agg h s b i) zeroW

/-- The sign-keeping square of the generalized mean: sign(x) · (|x| + ε)². -/
def signedSquare (x : Nodes.Idx → EReal) : Nodes.Idx → EReal :=
  fun i => Ideal.sign (x i) * Ideal.pow (max (x i) (-(x i)) + epsW) twoW

/-- A dense layer on the graph rows: the affine map of the row, cut at zero. -/
def dense (z : Graphs.Idx → EReal) (w : Sq.Idx → EReal) (b : Bias.Idx → EReal) : Graphs.Idx → EReal :=
  fun i => max ((∑ k : Fin 128, z (ix2 (i 0) k) * w (ix2 k (i 1))) + b (ix1 (i 1))) zeroW

/-- The last affine map, onto 64 outputs. -/
def affineOut (z : Graphs.Idx → EReal) (w : WOut.Idx → EReal) (b : BiasOut.Idx → EReal) : Out.Idx → EReal :=
  fun i => (∑ k : Fin 128, z (ix2 (i 0) k) * w (ix2 k (i 1))) + b (ix1 (i 1))

end Cert.Gnn

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.RegMM0.lean ====
/-
  The first feature-matrix product of the forward pass, as one function of whole arrays.

  The region walks the 50000 rows of the feature matrix in ten blocks of 5000 rows.  At a point it holds the point's
  5000 × 128 block of the feature matrix and the whole 128 × 128 weight matrix, changes both to a narrower float
  format (at the ideal values that changes nothing), multiplies them into a zero accumulator, and writes the
  5000 × 128 result back as the same block of rows of the output array.

  Entry (p, q) of a block product is the sum over k of x (p, k) · w (k, q).  Row p of the block at point t is row
  5000 · t + p of the matrix, and the weight block is the weight matrix at every point, so what point t writes back is
  block t of the product of the two whole matrices.  The ten blocks cover every row (row r lies in block r / 5000),
  hence after the last point the output array is that product.
-/
import proofs.«142938_j78829829750856_1_alg».proof.Proof.Gen.KernelIdeal.Frame
import proofs.«142938_j78829829750856_1_alg».proof.Proof.Spec
import proofs.«142938_j78829829750856_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R0

/-- The offsets of a whole-buffer access are zero on both axes. -/
theorem zero_offsets : (![0, 0] : Fin 2 → Nat) = fun _ => 0 := funext fun a => by fin_cases a <;> rfl

/-- The block product at an entry: the changes of float format are the identity at the ideal values, and the product
    into the zero accumulator is the plain sum over the shared coordinate. -/
theorem product_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  show FloatOps.matmul (⟨[1], [0], [0], [1], [], [], dot_S5000x128_S128x128_S5000x128_1_0_0_1_n_n_wf⟩ : DotDims _ _ _) none
      (truncf (F := Ideal) .bf16 x bitsLt_bf16_f32) (truncf (F := Ideal) .bf16 w bitsLt_bf16_f32)
      (constant (F := Ideal) _ .f32 0x00000000#32) (ix2 p q) = _
  rw [Cert.PlainProduct.matmul_nn_apply]
  rfl

/-- Where the blocks sit, at every point of the grid: the feature block and the output block have the point's
    number as block index on the row axis and 0 on the column axis; the weight block has index 0 on both. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 5000 · t + p of the feature matrix. -/
theorem features_block (c : Dev nD) (t : Fin cfg0.N) (p : Fin 5000) (k : Fin 128) (r : Fin 50000)
    (hr : r.val = t.val * 5000 + p.val) :
    iblk0 V c 0 t (ix2 p k) = V c main_arg0 (ix2 r k) := by
  obtain ⟨e0, e1, e2, e3, e4, e5⟩ := index_facts t
  unfold iblk0
  rw [View.read_apply]
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight block at any point is the whole weight matrix. -/
theorem weights_block (c : Dev nD) (t : Fin cfg0.N) (k q : Fin 128) :
    iblk0 V c 1 t (ix2 k q) = V c main_arg3 (ix2 k q) := by
  obtain ⟨e0, e1, e2, e3, e4, e5⟩ := index_facts t
  unfold iblk0
  rw [View.read_apply]
  show V c main_arg3 (((cfg0.win 1).blk t).view.emb (ix2 k q)) = V c main_arg3 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- One entry of the block a point computes, against the matrices the blocks were read from: when row p of the
    feature block is row r of the feature matrix and the weight block is the weight matrix, entry (p, q) of the
    block product is entry (r, q) of the product of the matrices. -/
theorem product_block_entry (A : Cert.Gnn.Nodes.Idx → EReal) (W : Cert.Gnn.Sq.Idx → EReal)
    (x : Vec Ideal S5000x128 .f32) (w : Vec Ideal S128x128 .f32) (p : Fin 5000) (r : Fin 50000) (q : Fin 128)
    (hx : ∀ k : Fin 128, x (ix2 p k) = A (ix2 r k)) (hw : ∀ k : Fin 128, w (ix2 k q) = W (ix2 k q)) :
    k0_pay1 x w (ix2 p q) = Cert.Gnn.mm A W (ix2 r q) := by
  rw [product_apply]
  show _ = ∑ k : Fin 128, A (ix2 r k) * W (ix2 k q)
  exact Finset.sum_congr rfl fun k _ => by rw [hx k, hw k]

/-- What a point writes back is its block of the product of the two matrices as the region finds them: entry (p, q)
    of the block at point t sits at (5000 · t + p, q) of the output array. -/
theorem flushed_eq (c : Dev nD) (t : Fin cfg0.N) :
    (dat0 (F := Ideal) V c).flushed 2 t
      = ((cfg0.win 2).blk t).view.read (Elt Ideal) (Cert.Gnn.mm (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  have hN : t.val < 10 := t.isLt
  funext j
  obtain ⟨p, q, rfl⟩ : ∃ (p : Fin 5000) (q : Fin 128), j = ix2 p q := ⟨j 0, j 1, eq_ix2 j⟩
  rw [View.read_apply]
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  exact product_block_entry (V c main_arg0) (V c main_arg3) (iblk0 V c 0 t) (iblk0 V c 1 t) p _ q
    (fun k => features_block V c t p k _ rfl) (fun k => weights_block V c t k q)

/-- An index of the output array is in a point's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v13).slice (win0_2.rect t)).set ↔ _
  rw [View.set_slice_whole, Rect.mem_set_unit]
  exact Iff.rfl

/-- Every index of the output array is in the block of the point numbered by its row divided by 5000. -/
theorem covered (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨e0, e1, e2, e3, e4, e5⟩ := index_facts t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

end R0

/-- After the region's last point the output array is the product of the feature matrix and the weight matrix as
    the region found them. -/
theorem final0 (c : Dev nD) :
    (dat0 (F := Ideal) V c).arrAt 2 cfg0.N = Cert.Gnn.mm (V c main_arg0) (V c main_arg3) :=
  (dat0 (F := Ideal) V c).arrAt_eq_of_cover 2 (Cert.Gnn.mm (V c main_arg0) (V c main_arg3))
    (fun t _ => R0.flushed_eq V c t) R0.covered

end Cert.KernelIdeal.Reg

end
-- ==== Proof.RegMM2.lean ====
/-
  The second feature-matrix product of the forward pass, as one function of whole arrays.

  The region walks the 50000 rows of the feature matrix in ten blocks of 5000 rows.  At a point it holds the point's
  5000 × 128 block of the feature matrix and the whole 128 × 128 weight matrix, changes both to a narrower float
  format (at the ideal values that changes nothing), multiplies them into a zero accumulator, and writes the
  5000 × 128 result back as the same block of rows of the output array.
  The body first re-lays the feature block in its own shape, which is the identity.

  Entry (p, q) of a block product is the sum over k of x (p, k) · w (k, q).  Row p of the block at point t is row
  5000 · t + p of the matrix, and the weight block is the weight matrix at every point, so what point t writes back is
  block t of the product of the two whole matrices.  The ten blocks cover every row (row r lies in block r / 5000),
  hence after the last point the output array is that product.
-/
import proofs.«142938_j78829829750856_1_alg».proof.Proof.Gen.KernelIdeal.Frame
import proofs.«142938_j78829829750856_1_alg».proof.Proof.Spec
import proofs.«142938_j78829829750856_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R2

/-- The offsets of a whole-buffer access are zero on both axes. -/
theorem zero_offsets : (![0, 0] : Fin 2 → Nat) = fun _ => 0 := funext fun a => by fin_cases a <;> rfl

/-- The block product at an entry: the changes of float format are the identity at the ideal values, and the product
    into the zero accumulator is the plain sum over the shared coordinate. -/
theorem product_apply (x : Vec Ideal S5000x128 .f32) (w : Vec Ideal S128x128 .f32) (p : Fin 5000) (q : Fin 128) :
    k2_pay1 x w (ix2 p q) = ∑ k : Fin 128, x (ix2 p k) * w (ix2 k q) := by
  unfold k2_pay1
  show FloatOps.matmul (⟨[1], [0], [0], [1], [], [], dot_S5000x128_S128x128_S5000x128_1_0_0_1_n_n_wf⟩ : DotDims _ _ _) none
      (truncf (F := Ideal) .bf16 (shapeCast S5000x128 x shapeCasts_S5000x128_S5000x128) bitsLt_bf16_f32) (truncf (F := Ideal) .bf16 w bitsLt_bf16_f32)
      (constant (F := Ideal) _ .f32 0x00000000#32) (ix2 p q) = _
  rw [Cert.PlainProduct.matmul_nn_apply, shapeCast_self]
  rfl

/-- Where the blocks sit, at every point of the grid: the feature block and the output block have the point's
    number as block index on the row axis and 0 on the column axis; the weight block has index 0 on both. -/
theorem index_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the feature block at point t is row 5000 · t + p of the feature matrix. -/
theorem features_block (c : Dev nD) (t : Fin cfg2.N) (p : Fin 5000) (k : Fin 128) (r : Fin 50000)
    (hr : r.val = t.val * 5000 + p.val) :
    iblk2 V c 0 t (ix2 p k) = V c main_v42 (ix2 r k) := by
  obtain ⟨e0, e1, e2, e3, e4, e5⟩ := index_facts t
  unfold iblk2
  rw [View.read_apply]
  show V c main_v42 (((cfg2.win 0).blk t).view.emb (ix2 p k)) = V c main_v42 (ix2 r k)
  refine congrArg _ ?_
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The weight block at any point is the whole weight matrix. -/
theorem weights_block (c : Dev nD) (t : Fin cfg2.N) (k q : Fin 128) :
    iblk2 V c 1 t (ix2 k q) = V c main_arg5 (ix2 k q) := by
  obtain ⟨e0, e1, e2, e3, e4, e5⟩ := index_facts t
  unfold iblk2
  rw [View.read_apply]
  show V c main_arg5 (((cfg2.win 1).blk t).view.emb (ix2 k q)) = V c main_arg5 (ix2 k q)
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- One entry of the block a point computes, against the matrices the blocks were read from: when row p of the
    feature block is row r of the feature matrix and the weight block is the weight matrix, entry (p, q) of the
    block product is entry (r, q) of the product of the matrices. -/
theorem product_block_entry (A : Cert.Gnn.Nodes.Idx → EReal) (W : Cert.Gnn.Sq.Idx → EReal)
    (x : Vec Ideal S5000x128 .f32) (w : Vec Ideal S128x128 .f32) (p : Fin 5000) (r : Fin 50000) (q : Fin 128)
    (hx : ∀ k : Fin 128, x (ix2 p k) = A (ix2 r k)) (hw : ∀ k : Fin 128, w (ix2 k q) = W (ix2 k q)) :
    k2_pay1 x w (ix2 p q) = Cert.Gnn.mm A W (ix2 r q) := by
  rw [product_apply]
  show _ = ∑ k : Fin 128, A (ix2 r k) * W (ix2 k q)
  exact Finset.sum_congr rfl fun k _ => by rw [hx k, hw k]

/-- What a point writes back is its block of the product of the two matrices as the region finds them: entry (p, q)
    of the block at point t sits at (5000 · t + p, q) of the output array. -/
theorem flushed_eq (c : Dev nD) (t : Fin cfg2.N) :
    (dat2 (F := Ideal) V c).flushed 2 t
      = ((cfg2.win 2).blk t).view.read (Elt Ideal) (Cert.Gnn.mm (V c main_v42) (V c main_arg5)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_facts t
  have hN : t.val < 10 := t.isLt
  funext j
  obtain ⟨p, q, rfl⟩ : ∃ (p : Fin 5000) (q : Fin 128), j = ix2 p q := ⟨j 0, j 1, eq_ix2 j⟩
  rw [View.read_apply]
  have hemb : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hemb]
  exact product_block_entry (V c main_v42) (V c main_arg5) (iblk2 V c 0 t) (iblk2 V c 1 t) p _ q
    (fun k => features_block V c t p k _ rfl) (fun k => weights_block V c t k q)

/-- An index of the output array is in a point's block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- Every index of the output array is in the block of the point numbered by its row divided by 5000. -/
theorem covered (i : S50000x128.Idx) :
    ∃ t : Fin cfg2.N, (cfg2.win 2).flush t = true ∧ i ∈ ((cfg2.win 2).blk t).view.set := by
  have h0 : (i 0).val < 50000 := (i 0).isLt
  have h1 : (i 1).val < 128 := (i 1).isLt
  obtain ⟨t, ht⟩ : ∃ t : Fin cfg2.N, t.val = (i 0).val / 5000 :=
    ⟨⟨(i 0).val / 5000, by rw [show cfg2.N = 10 from N_2]; omega⟩, rfl⟩
  obtain ⟨e0, e1, e2, e3, e4, e5⟩ := index_facts t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

end R2

/-- After the region's last point the output array is the product of the feature matrix and the weight matrix as
    the region found them. -/
theorem final2 (c : Dev nD) :
    (dat2 (F := Ideal) V c).arrAt 2 cfg2.N = Cert.Gnn.mm (V c main_v42) (V c main_arg5) :=
  (dat2 (F := Ideal) V c).arrAt_eq_of_cover 2 (Cert.Gnn.mm (V c main_v42) (V c main_arg5))
    (fun t _ => R2.flushed_eq V c t) R2.covered

end Cert.KernelIdeal.Reg

end
-- ==== Proof.RegMM4.lean ====
/-
  The third feature-matrix product of the forward pass, as one function of whole arrays.

  The region walks the 50000 rows of the feature matrix in ten blocks of 5000 rows.  At a point it holds the point's
  5000 × 128 block of the feature matrix and the whole 128 × 128 weight matrix, changes both to a narrower float
  format (at the ideal values that changes nothing), multiplies them into a zero accumulator, and writes the
  5000 × 128 result back as the same block of rows of the output array.
  The body first re-lays the feature block in its own shape, which is the identity.

  Entry (p, q) of a block product is the sum over k of x (p, k) · w (k, q).  Row p of the block at point t is row
  5000 · t + p of the matrix, and the weight block is the weight matrix at every point, so what point t writes back is
  block t of the product of the two whole matrices.  The ten blocks cover every row (row r lies in block r / 5000),
  hence after the last point the output array is that product.
-/
import proofs.«142938_j78829829750856_1_alg».proof.Proof.Gen.KernelIdeal.Frame
import proofs.«142938_j78829829750856_1_alg».proof.Proof.Spec
import proofs.«142938_j78829829750856_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R4

/-- The offsets of a whole-buffer access are zero on both axes. -/
theorem zero_offsets : (![0, 0] : Fin 2 → Nat) = fun _ => 0 := funext fun a => by fin_cases a <;> rfl

/-- The block product at an entry: the changes of float format are the identity at the ideal values, and the product
    into the zero accumulator is the plain sum over the shared coordinate. -/
theorem product_apply (x : Vec Ideal S5000x128 .f32) (w : Vec Ideal S128x128 .f32) (p : Fin 5000) (q : Fin 128) :
    k4_pay1 x w (ix2 p q) = ∑ k : Fin 128, x (ix2 p k) * w (ix2 k q) := by
  unfold k4_pay1
  show FloatOps.matmul (⟨[1], [0], [0], [1], [], [], dot_S5000x128_S128x128_S5000x128_1_0_0_1_n_n_wf⟩ : DotDims _ _ _) none
      (truncf (F := Ideal) .bf16 (shapeCast S5000x128 x shapeCasts_S5000x128_S5000x128) bitsLt_bf16_f32) (truncf (F := Ideal) .bf16 w bitsLt_bf16_f32)
      (constant (F := Ideal) _ .f32 0x00000000#32) (ix2 p q) = _
  rw [Cert.PlainProduct.matmul_nn_apply, shapeCast_self]
  rfl

/-- Where the blocks sit, at every point of the grid: the feature block and the output block have the point's
    number as block index on the row axis and 0 on the column axis; the weight block has index 0 on both. -/
theorem index_facts : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the feature block at point t is row 5000 · t + p of the feature matrix. -/
theorem features_block (c : Dev nD) (t : Fin cfg4.N) (p : Fin 5000) (k : Fin 128) (r : Fin 50000)
    (hr : r.val = t.val * 5000 + p.val) :
    iblk4 V c 0 t (ix2 p k) = V c main_v72 (ix2 r k) := by
  obtain ⟨e0, e1, e2, e3, e4, e5⟩ := index_facts t
  unfold iblk4
  rw [View.read_apply]
  show V c main_v72 (((cfg4.win 0).blk t).view.emb (ix2 p k)) = V c main_v72 (ix2 r k)
  refine congrArg _ ?_
  funext a; apply Fin.ext
  match a with
  | ⟨0, _⟩ => show win4_0.index t (0 : Fin 2) * 5000 + 1 * p.val = r.val; omega
  | ⟨1, _⟩ => show win4_0.index t (1 : Fin 2) * 128 + 1 * k.val = k.val; omega

/-- The weight block at any point is the whole weight matrix. -/
theorem weights_block (c : Dev nD) (t : Fin cfg4.N) (k q : Fin 128) :
    iblk4 V c 1 t (ix2 k q) = V c main_arg7 (ix2 k q) := by
  obtain ⟨e0, e1, e2, e3, e4, e5⟩ := index_facts t
  unfold iblk4
  rw [View.read_apply]
  show V c main_arg7 (((cfg4.win 1).blk t).view.emb (ix2 k q)) = V c main_arg7 (ix2 k q)
  refine congrArg _ ?_
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- One entry of the block a point computes, against the matrices the blocks were read from: when row p of the
    feature block is row r of the feature matrix and the weight block is the weight matrix, entry (p, q) of the
    block product is entry (r, q) of the product of the matrices. -/
theorem product_block_entry (A : Cert.Gnn.Nodes.Idx → EReal) (W : Cert.Gnn.Sq.Idx → EReal)
    (x : Vec Ideal S5000x128 .f32) (w : Vec Ideal S128x128 .f32) (p : Fin 5000) (r : Fin 50000) (q : Fin 128)
    (hx : ∀ k : Fin 128, x (ix2 p k) = A (ix2 r k)) (hw : ∀ k : Fin 128, w (ix2 k q) = W (ix2 k q)) :
    k4_pay1 x w (ix2 p q) = Cert.Gnn.mm A W (ix2 r q) := by
  rw [product_apply]
  show _ = ∑ k : Fin 128, A (ix2 r k) * W (ix2 k q)
  exact Finset.sum_congr rfl fun k _ => by rw [hx k, hw k]

/-- What a point writes back is its block of the product of the two matrices as the region finds them: entry (p, q)
    of the block at point t sits at (5000 · t + p, q) of the output array. -/
theorem flushed_eq (c : Dev nD) (t : Fin cfg4.N) :
    (dat4 (F := Ideal) V c).flushed 2 t
      = ((cfg4.win 2).blk t).view.read (Elt Ideal) (Cert.Gnn.mm (V c main_v72) (V c main_arg7)) := by
  show (cfg4.win 2).cut (grid4.coords t) ((dat4 (F := Ideal) V c).after 2 t) = _
  rw [after4_2]
  unfold out4_2
  rw [View.canon_unit_zero zero_offsets]
  simp only [View.ld_unit_zero (S := S5000x128) zero_offsets, View.ld_unit_zero (S := S128x128) zero_offsets]
  obtain ⟨e0, e1, e2, e3, e4, e5⟩ := index_facts t
  have hN : t.val < 10 := t.isLt
  funext j
  obtain ⟨p, q, rfl⟩ : ∃ (p : Fin 5000) (q : Fin 128), j = ix2 p q := ⟨j 0, j 1, eq_ix2 j⟩
  rw [View.read_apply]
  have hemb : ((cfg4.win 2).blk t).view.emb (ix2 p q) = ix2 (⟨t.val * 5000 + p.val, by omega⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  rw [hemb]
  exact product_block_entry (V c main_v72) (V c main_arg7) (iblk4 V c 0 t) (iblk4 V c 1 t) p _ q
    (fun k => features_block V c t p k _ rfl) (fun k => weights_block V c t k q)

/-- An index of the output array is in a point's block iff each coordinate is in the block's range on its axis. -/
theorem mem_block (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v73).slice (win4_2.rect t)).set ↔ _
  rw [View.set_slice_whole, Rect.mem_set_unit]
  exact Iff.rfl

/-- Every index of the output array is in the block of the point numbered by its row divided by 5000. -/
theorem covered (i : S50000x128.Idx) :
    ∃ t : Fin cfg4.N, (cfg4.win 2).flush t = true ∧ i ∈ ((cfg4.win 2).blk t).view.set := by
  have h0 : (i 0).val < 50000 := (i 0).isLt
  have h1 : (i 1).val < 128 := (i 1).isLt
  obtain ⟨t, ht⟩ : ∃ t : Fin cfg4.N, t.val = (i 0).val / 5000 :=
    ⟨⟨(i 0).val / 5000, by rw [show cfg4.N = 10 from N_4]; omega⟩, rfl⟩
  obtain ⟨e0, e1, e2, e3, e4, e5⟩ := index_facts t
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

end R4

/-- After the region's last point the output array is the product of the feature matrix and the weight matrix as
    the region found them. -/
theorem final4 (c : Dev nD) :
    (dat4 (F := Ideal) V c).arrAt 2 cfg4.N = Cert.Gnn.mm (V c main_v72) (V c main_arg7) :=
  (dat4 (F := Ideal) V c).arrAt_eq_of_cover 2 (Cert.Gnn.mm (V c main_v72) (V c main_arg7))
    (fun t _ => R4.flushed_eq V c t) R4.covered

end Cert.KernelIdeal.Reg

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.RegComb1.lean ====
/-
  The first layer's combine step, read as one function of whole arrays.

  The step runs over ten blocks of 5000 node rows.  On a block it takes the aggregated messages a, the layer's
  product h, the one-column array s of self-loop weights and the bias b of length 128, and leaves at row p and
  column q of the block
      max ((a (p, q) + h (p, q) · s (p, 0)) + b q, 0).
  Block t of the messages, of the product and of the weights is rows 5000 t … 5000 t + 4999 of its array, the bias
  is read whole at every block, and block t of the result goes to the same rows of the result array.  The ten
  blocks fill the 50000 rows, so the result array ends as the combine step followed by the cut at zero of the four
  arrays, entry by entry.
-/
import proofs.«142938_j78829829750856_1_alg».proof.Proof.Gen.KernelIdeal.Frame
import proofs.«142938_j78829829750856_1_alg».proof.Proof.Spec
import proofs.«142938_j78829829750856_1_alg».proof.Proof.LibBroadcast
import proofs.«142938_j78829829750856_1_alg».proof.Proof.LibRowsProduct
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- One entry of a block's result.  The weight column is repeated along the 128 columns, so entry (p, q) of the
    repeated array is the weight of row p; the bias is laid as one row and repeated down the 5000 rows, so entry
    (p, q) of that is the bias of column q; the casts to the same shape change nothing; sums, products and the
    maximum act entry by entry, and the splat of the zero word is that word's value everywhere. -/
theorem comb1_entry (a h : Vec Ideal S5000x128 .f32) (s : Vec Ideal S5000x1 .f32) (b : Vec Ideal S128 .f32)
    (p : Fin 5000) (q : Fin 128) :
    k1_pay1 (F := Ideal) a h s b (ix2 p q)
      = max ((a (ix2 p q) + h (ix2 p q) * s (ix2 p (0 : Fin 1))) + b (ix1 q)) Cert.Gnn.zeroW := by
  unfold k1_pay1
  rw [maximumf_apply, addf_apply, addf_apply, mulf_apply, broadcast_apply, shapeCast_self, shapeCast_self, shapeCast_self,
    Cert.Layout.broadcastTo_a1_ab_apply, Cert.RowsProduct.broadcastTo_1n_an_apply, Cert.Layout.shapeCast_row_apply]
  rfl

/-- The corner of a rank-2 block is the zero offset on both axes. -/
theorem comb1_origin2 : (![0, 0] : Fin 2 → Nat) = fun _ => 0 := funext fun a => by fin_cases a <;> rfl
/-- The corner of a rank-1 block is the zero offset. -/
theorem comb1_origin1 : (![0] : Fin 1 → Nat) = fun _ => 0 := funext fun a => by fin_cases a <;> rfl

/-- Where the blocks sit, at each of the ten grid points: the messages', the product's and the weights' block
    have the result block's row index and column index 0; the bias block has index 0; the result's block has
    the point's own number as row index and column index 0. -/
theorem comb1_indices : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 1) = 0
    ∧ win1_4.index t (1 : Fin 2) = 0 ∧ win1_4.index t (0 : Fin 2) = t.val :=
  (by decide +kernel : ∀ t : Fin grid1.N, _)

/-- What grid point t writes to the result array is block t of the combine step with the cut at zero of the four
    arrays.  At entry (p, q) of the block the step reads the messages and the product at row 5000 t + p and column q,
    the weight at row 5000 t + p of the one column, and the bias at q: exactly the entries the whole-array
    function reads at row 5000 t + p and column q. -/
theorem comb1_written (c : Dev nD) (t : Fin cfg1.N) :
    (dat1 (F := Ideal) V c).flushed 4 t = ((cfg1.win 4).blk t).view.read (Elt Ideal)
      (Cert.Gnn.combRelu (V c main_v41) (V c main_v13) (V c main_v12) (V c main_arg4)) := by
  show (cfg1.win 4).cut (grid1.coords t) ((dat1 (F := Ideal) V c).after 4 t) = _
  rw [after1_4]
  unfold out1_4
  rw [View.canon_unit_zero comb1_origin2]
  simp only [View.ld_unit_zero (S := S5000x128) comb1_origin2, View.ld_unit_zero (S := S5000x1) comb1_origin2,
    View.ld_unit_zero (S := S128) comb1_origin1]
  funext j
  obtain ⟨e0a, e0b, e1a, e1b, e2a, e2b, e3, e4b, e4a⟩ := comb1_indices t
  have hp : (j 0).val < 5000 := (j 0).isLt
  have hq : (j 1).val < 128 := (j 1).isLt
  show k1_pay1 (F := Ideal) (iblk1 V c 0 t) (iblk1 V c 1 t) (iblk1 V c 2 t) (iblk1 V c 3 t)
    (ix2 (⟨(j 0).val, hp⟩ : Fin 5000) (⟨(j 1).val, hq⟩ : Fin 128)) = _
  rw [comb1_entry, View.read_apply]
  -- the messages' block entry is the array's entry under the result block's entry
  have h0 : iblk1 V c 0 t (ix2 (⟨(j 0).val, hp⟩ : Fin 5000) (⟨(j 1).val, hq⟩ : Fin 128))
      = V c main_v41 (((cfg1.win 4).blk t).view.emb j) := by
    show V c main_v41 (((cfg1.win 0).blk t).view.emb (ix2 (⟨(j 0).val, hp⟩ : Fin 5000) (⟨(j 1).val, hq⟩ : Fin 128))) = _
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  -- the same for the product
  have h1 : iblk1 V c 1 t (ix2 (⟨(j 0).val, hp⟩ : Fin 5000) (⟨(j 1).val, hq⟩ : Fin 128))
      = V c main_v13 (((cfg1.win 4).blk t).view.emb j) := by
    show V c main_v13 (((cfg1.win 1).blk t).view.emb (ix2 (⟨(j 0).val, hp⟩ : Fin 5000) (⟨(j 1).val, hq⟩ : Fin 128))) = _
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  -- the weight of block row p is the weight of the array's row under it
  have h2 : iblk1 V c 2 t (ix2 (⟨(j 0).val, hp⟩ : Fin 5000) (0 : Fin 1))
      = V c main_v12 (ix2 ((((cfg1.win 4).blk t).view.emb j) 0) (0 : Fin 1)) := by
    show V c main_v12 (((cfg1.win 2).blk t).view.emb (ix2 (⟨(j 0).val, hp⟩ : Fin 5000) (0 : Fin 1))) = _
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  -- the bias block is the whole bias: its entry q is the bias of the array's column under it
  have h3 : iblk1 V c 3 t (ix1 (⟨(j 1).val, hq⟩ : Fin 128))
      = V c main_arg4 (ix1 ((((cfg1.win 4).blk t).view.emb j) 1)) := by
    show V c main_arg4 (((cfg1.win 3).blk t).view.emb (ix1 (⟨(j 1).val, hq⟩ : Fin 128))) = _
    refine congrArg _ (funext fun a => Fin.ext ?_)
    match a with
    | ⟨0, _⟩ => show win1_3.index t (0 : Fin 1) * 128 + 1 * (j 1).val = win1_4.index t (1 : Fin 2) * 128 + 1 * (j 1).val; omega
  rw [h0, h1, h2, h3]
  rfl

/-- An entry of the result array lies in grid point t's block exactly when, on each axis, its coordinate is
    within the block's extent past the block's start. -/
theorem comb1_mem_rows (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every entry of the result array is written: row r lies in the block of grid point r / 5000, and every
    block spans all 128 columns. -/
theorem comb1_rows_covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, e4b, e4a⟩ := comb1_indices t
  refine ⟨t, flush1_4 t, ?_⟩
  rw [comb1_mem_rows]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the last grid point the result array is the combine step with the cut at zero of the messages, the
    product, the self-loop weights and the bias as the step found them: each point writes its block of that
    function, and the blocks cover the array. -/
theorem final1 (c : Dev nD) : (dat1 (F := Ideal) V c).arrAt 4 cfg1.N = Cert.Gnn.combRelu (V c main_v41) (V c main_v13) (V c main_v12) (V c main_arg4) :=
  (dat1 (F := Ideal) V c).arrAt_eq_of_cover 4 _ (fun t _ => comb1_written V c t) comb1_rows_covered

end Cert.KernelIdeal.Reg

end
-- ==== Proof.RegComb3.lean ====
/-
  The second layer's combine step, read as one function of whole arrays.

  The step runs over ten blocks of 5000 node rows.  On a block it takes the aggregated messages a, the layer's
  product h, the one-column array s of self-loop weights and the bias b of length 128, and leaves at row p and
  column q of the block
      max ((a (p, q) + h (p, q) · s (p, 0)) + b q, 0).
  Block t of the messages, of the product and of the weights is rows 5000 t … 5000 t + 4999 of its array, the bias
  is read whole at every block, and block t of the result goes to the same rows of the result array.  The ten
  blocks fill the 50000 rows, so the result array ends as the combine step followed by the cut at zero of the four
  arrays, entry by entry.
-/
import proofs.«142938_j78829829750856_1_alg».proof.Proof.Gen.KernelIdeal.Frame
import proofs.«142938_j78829829750856_1_alg».proof.Proof.Spec
import proofs.«142938_j78829829750856_1_alg».proof.Proof.LibBroadcast
import proofs.«142938_j78829829750856_1_alg».proof.Proof.LibRowsProduct
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- One entry of a block's result.  The weight column is repeated along the 128 columns, so entry (p, q) of the
    repeated array is the weight of row p; the bias is laid as one row and repeated down the 5000 rows, so entry
    (p, q) of that is the bias of column q; the casts to the same shape change nothing; sums, products and the
    maximum act entry by entry, and the splat of the zero word is that word's value everywhere. -/
theorem comb3_entry (a h : Vec Ideal S5000x128 .f32) (s : Vec Ideal S5000x1 .f32) (b : Vec Ideal S128 .f32)
    (p : Fin 5000) (q : Fin 128) :
    k3_pay1 (F := Ideal) a h s b (ix2 p q)
      = max ((a (ix2 p q) + h (ix2 p q) * s (ix2 p (0 : Fin 1))) + b (ix1 q)) Cert.Gnn.zeroW := by
  unfold k3_pay1
  rw [maximumf_apply, addf_apply, addf_apply, mulf_apply, broadcast_apply, shapeCast_self, shapeCast_self, shapeCast_self,
    Cert.Layout.broadcastTo_a1_ab_apply, Cert.RowsProduct.broadcastTo_1n_an_apply, Cert.Layout.shapeCast_row_apply]
  rfl

/-- The corner of a rank-2 block is the zero offset on both axes. -/
theorem comb3_origin2 : (![0, 0] : Fin 2 → Nat) = fun _ => 0 := funext fun a => by fin_cases a <;> rfl
/-- The corner of a rank-1 block is the zero offset. -/
theorem comb3_origin1 : (![0] : Fin 1 → Nat) = fun _ => 0 := funext fun a => by fin_cases a <;> rfl

/-- Where the blocks sit, at each of the ten grid points: the messages', the product's and the weights' block
    have the result block's row index and column index 0; the bias block has index 0; the result's block has
    the point's own number as row index and column index 0. -/
theorem comb3_indices : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 1) = 0
    ∧ win3_4.index t (1 : Fin 2) = 0 ∧ win3_4.index t (0 : Fin 2) = t.val :=
  (by decide +kernel : ∀ t : Fin grid3.N, _)

/-- What grid point t writes to the result array is block t of the combine step with the cut at zero of the four
    arrays.  At entry (p, q) of the block the step reads the messages and the product at row 5000 t + p and column q,
    the weight at row 5000 t + p of the one column, and the bias at q: exactly the entries the whole-array
    function reads at row 5000 t + p and column q. -/
theorem comb3_written (c : Dev nD) (t : Fin cfg3.N) :
    (dat3 (F := Ideal) V c).flushed 4 t = ((cfg3.win 4).blk t).view.read (Elt Ideal)
      (Cert.Gnn.combRelu (V c main_v71) (V c main_v43) (V c main_v12) (V c main_arg6)) := by
  show (cfg3.win 4).cut (grid3.coords t) ((dat3 (F := Ideal) V c).after 4 t) = _
  rw [after3_4]
  unfold out3_4
  rw [View.canon_unit_zero comb3_origin2]
  simp only [View.ld_unit_zero (S := S5000x128) comb3_origin2, View.ld_unit_zero (S := S5000x1) comb3_origin2,
    View.ld_unit_zero (S := S128) comb3_origin1]
  funext j
  obtain ⟨e0a, e0b, e1a, e1b, e2a, e2b, e3, e4b, e4a⟩ := comb3_indices t
  have hp : (j 0).val < 5000 := (j 0).isLt
  have hq : (j 1).val < 128 := (j 1).isLt
  show k3_pay1 (F := Ideal) (iblk3 V c 0 t) (iblk3 V c 1 t) (iblk3 V c 2 t) (iblk3 V c 3 t)
    (ix2 (⟨(j 0).val, hp⟩ : Fin 5000) (⟨(j 1).val, hq⟩ : Fin 128)) = _
  rw [comb3_entry, View.read_apply]
  -- the messages' block entry is the array's entry under the result block's entry
  have h0 : iblk3 V c 0 t (ix2 (⟨(j 0).val, hp⟩ : Fin 5000) (⟨(j 1).val, hq⟩ : Fin 128))
      = V c main_v71 (((cfg3.win 4).blk t).view.emb j) := by
    show V c main_v71 (((cfg3.win 0).blk t).view.emb (ix2 (⟨(j 0).val, hp⟩ : Fin 5000) (⟨(j 1).val, hq⟩ : Fin 128))) = _
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  -- the same for the product
  have h1 : iblk3 V c 1 t (ix2 (⟨(j 0).val, hp⟩ : Fin 5000) (⟨(j 1).val, hq⟩ : Fin 128))
      = V c main_v43 (((cfg3.win 4).blk t).view.emb j) := by
    show V c main_v43 (((cfg3.win 1).blk t).view.emb (ix2 (⟨(j 0).val, hp⟩ : Fin 5000) (⟨(j 1).val, hq⟩ : Fin 128))) = _
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  -- the weight of block row p is the weight of the array's row under it
  have h2 : iblk3 V c 2 t (ix2 (⟨(j 0).val, hp⟩ : Fin 5000) (0 : Fin 1))
      = V c main_v12 (ix2 ((((cfg3.win 4).blk t).view.emb j) 0) (0 : Fin 1)) := by
    show V c main_v12 (((cfg3.win 2).blk t).view.emb (ix2 (⟨(j 0).val, hp⟩ : Fin 5000) (0 : Fin 1))) = _
    refine congrArg _ (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  -- the bias block is the whole bias: its entry q is the bias of the array's column under it
  have h3 : iblk3 V c 3 t (ix1 (⟨(j 1).val, hq⟩ : Fin 128))
      = V c main_arg6 (ix1 ((((cfg3.win 4).blk t).view.emb j) 1)) := by
    show V c main_arg6 (((cfg3.win 3).blk t).view.emb (ix1 (⟨(j 1).val, hq⟩ : Fin 128))) = _
    refine congrArg _ (funext fun a => Fin.ext ?_)
    match a with
    | ⟨0, _⟩ => show win3_3.index t (0 : Fin 1) * 128 + 1 * (j 1).val = win3_4.index t (1 : Fin 2) * 128 + 1 * (j 1).val; omega
  rw [h0, h1, h2, h3]
  rfl

/-- An entry of the result array lies in grid point t's block exactly when, on each axis, its coordinate is
    within the block's extent past the block's start. -/
theorem comb3_mem_rows (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v72).slice (win3_4.rect t)).set ↔ _
  rw [View.set_slice_whole, Rect.mem_set_unit]
  exact Iff.rfl

/-- Every entry of the result array is written: row r lies in the block of grid point r / 5000, and every
    block spans all 128 columns. -/
theorem comb3_rows_covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, e4b, e4a⟩ := comb3_indices t
  refine ⟨t, flush3_4 t, ?_⟩
  rw [comb3_mem_rows]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the last grid point the result array is the combine step with the cut at zero of the messages, the
    product, the self-loop weights and the bias as the step found them: each point writes its block of that
    function, and the blocks cover the array. -/
theorem final3 (c : Dev nD) : (dat3 (F := Ideal) V c).arrAt 4 cfg3.N = Cert.Gnn.combRelu (V c main_v71) (V c main_v43) (V c main_v12) (V c main_arg6) :=
  (dat3 (F := Ideal) V c).arrAt_eq_of_cover 4 _ (fun t _ => comb3_written V c t) comb3_rows_covered

end Cert.KernelIdeal.Reg

end
-- ==== Proof.RegComb5.lean ====
/-
  The third layer's combine step, read as one function of whole arrays.

  The step runs over ten blocks of 5000 node rows.  On a block it takes the aggregated messages a, the layer's
  product h, the one-column array s of self-loop weights and the bias b of length 128, and leaves at row p and
  column q of the block
      (a (p, q) + h (p, q) · s (p, 0)) + b q.
  Block t of the messages, of the product and of the weights is rows 5000 t … 5000 t + 4999 of its array, the bias
  is read whole at every block, and block t of the result goes to the same rows of the result array.  The ten
  blocks fill the 50000 rows, so the result array ends as the combine step of the four
  arrays, entry by entry.
-/
import proofs.«142938_j78829829750856_1_alg».proof.Proof.Gen.KernelIdeal.Frame
import proofs.«142938_j78829829750856_1_alg».proof.Proof.Spec
import proofs.«142938_j78829829750856_1_alg».proof.Proof.LibBroadcast
import proofs.«142938_j78829829750856_1_alg».proof.Proof.LibRowsProduct
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- One entry of a block's result.  The weight column is repeated along the 128 columns, so entry (p, q) of the
    repeated array is the weight of row p; the bias is laid as one row and repeated down the 5000 rows, so entry
    (p, q) of that is the bias of column q; the casts to the same shape change nothing; sums and products act entry by entry. -/
theorem comb5_entry (a h : Vec Ideal S5000x128 .f32) (s : Vec Ideal S5000x1 .f32) (b : Vec Ideal S128 .f32)
    (p : Fin 5000) (q : Fin 128) :
    k5_pay1 (F := Ideal) a h s b (ix2 p q)
      = (a (ix2 p q) + h (ix2 p q) * s (ix2 p (0 : Fin 1))) + b (ix1 q) := by
  unfold k5_pay1
  rw [addf_apply, addf_apply, mulf_apply, shapeCast_self, shapeCast_self, shapeCast_self,
    Cert.Layout.broadcastTo_a1_ab_apply, Cert.RowsProduct.broadcastTo_1n_an_apply, Cert.Layout.shapeCast_row_apply]

/-- The corner of a rank-2 block is the zero offset on both axes. -/
theorem comb5_origin2 : (![0, 0] : Fin 2 → Nat) = fun _ => 0 := funext fun a => by fin_cases a <;> rfl
/-- The corner of a rank-1 block is the zero offset. -/
theorem comb5_origin1 : (![0] : Fin 1 → Nat) = fun _ => 0 := funext fun a => by fin_cases a <;> rfl

/-- Where the blocks sit, at each of the ten grid points: the messages', the product's and the weights' block
    have the result block's row index and column index 0; the bias block has index 0; the result's block has
    the point's own number as row index and column index 0. -/
theorem comb5_indices : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 1) = 0
    ∧ win5_4.index t (1 : Fin 2) = 0 ∧ win5_4.index t (0 : Fin 2) = t.val :=
  (by decide +kernel : ∀ t : Fin grid5.N, _)

/-- What grid point t writes to the result array is block t of the combine step of the four
    arrays.  At entry (p, q) of the block the step reads the messages and the product at row 5000 t + p and column q,
    the weight at row 5000 t + p of the one column, and the bias at q: exactly the entries the whole-array
    function reads at row 5000 t + p and column q. -/
theorem comb5_written (c : Dev nD) (t : Fin cfg5.N) :
    (dat5 (F := Ideal) V c).flushed 4 t = ((cfg5.win 4).blk t).view.read (Elt Ideal)
      (Cert.Gnn.comb (V c main_v101) (V c main_v73) (V c main_v12) (V c main_arg8)) := by
  show (cfg5.win 4).cut (grid5.coords t) ((dat5 (F := Ideal) V c).after 4 t) = _
  rw [after5_4]
  unfold out5_4
  rw [View.canon_unit_zero comb5_origin2]
  simp only [View.ld_unit_zero (S := S5000x128) comb5_origin2, View.ld_unit_zero (S := S5000x1) comb5_origin2,
    View.ld_unit_zero (S := S128) comb5_origin1]
  funext j
  obtain ⟨e0a, e0b, e1a, e1b, e2a, e2b, e3, e4b, e4a⟩ := comb5_indices t
  have hp : (j 0).val < 5000 := (j 0).isLt
  have hq : (j 1).val < 128 := (j 1).isLt
  show k5_pay1 (F := Ideal) (iblk5 V c 0 t) (iblk5 V c 1 t) (iblk5 V c 2 t) (iblk5 V c 3 t)
    (ix2 (⟨(j 0).val, hp⟩ : Fin 5000) (⟨(j 1).val, hq⟩ : Fin 128)) = _
  rw [comb5_entry, View.read_apply]
  -- the messages' block entry is the array's entry under the result block's entry
  have h0 : iblk5 V c 0 t (ix2 (⟨(j 0).val, hp⟩ : Fin 5000) (⟨(j 1).val, hq⟩ : Fin 128))
      = V c main_v101 (((cfg5.win 4).blk t).view.emb j) := by
    show V c main_v101 (((cfg5.win 0).blk t).view.emb (ix2 (⟨(j 0).val, hp⟩ : Fin 5000) (⟨(j 1).val, hq⟩ : Fin 128))) = _
    refine congrArg _ (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  -- the same for the product
  have h1 : iblk5 V c 1 t (ix2 (⟨(j 0).val, hp⟩ : Fin 5000) (⟨(j 1).val, hq⟩ : Fin 128))
      = V c main_v73 (((cfg5.win 4).blk t).view.emb j) := by
    show V c main_v73 (((cfg5.win 1).blk t).view.emb (ix2 (⟨(j 0).val, hp⟩ : Fin 5000) (⟨(j 1).val, hq⟩ : Fin 128))) = _
    refine congrArg _ (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  -- the weight of block row p is the weight of the array's row under it
  have h2 : iblk5 V c 2 t (ix2 (⟨(j 0).val, hp⟩ : Fin 5000) (0 : Fin 1))
      = V c main_v12 (ix2 ((((cfg5.win 4).blk t).view.emb j) 0) (0 : Fin 1)) := by
    show V c main_v12 (((cfg5.win 2).blk t).view.emb (ix2 (⟨(j 0).val, hp⟩ : Fin 5000) (0 : Fin 1))) = _
    refine congrArg _ (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  -- the bias block is the whole bias: its entry q is the bias of the array's column under it
  have h3 : iblk5 V c 3 t (ix1 (⟨(j 1).val, hq⟩ : Fin 128))
      = V c main_arg8 (ix1 ((((cfg5.win 4).blk t).view.emb j) 1)) := by
    show V c main_arg8 (((cfg5.win 3).blk t).view.emb (ix1 (⟨(j 1).val, hq⟩ : Fin 128))) = _
    refine congrArg _ (funext fun a => Fin.ext ?_)
    match a with
    | ⟨0, _⟩ => show win5_3.index t (0 : Fin 1) * 128 + 1 * (j 1).val = win5_4.index t (1 : Fin 2) * 128 + 1 * (j 1).val; omega
  rw [h0, h1, h2, h3]
  rfl

/-- An entry of the result array lies in grid point t's block exactly when, on each axis, its coordinate is
    within the block's extent past the block's start. -/
theorem comb5_mem_rows (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v102).slice (win5_4.rect t)).set ↔ _
  rw [View.set_slice_whole, Rect.mem_set_unit]
  exact Iff.rfl

/-- Every entry of the result array is written: row r lies in the block of grid point r / 5000, and every
    block spans all 128 columns. -/
theorem comb5_rows_covered (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, e4b, e4a⟩ := comb5_indices t
  refine ⟨t, flush5_4 t, ?_⟩
  rw [comb5_mem_rows]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- After the last grid point the result array is the combine step of the messages, the
    product, the self-loop weights and the bias as the step found them: each point writes its block of that
    function, and the blocks cover the array. -/
theorem final5 (c : Dev nD) : (dat5 (F := Ideal) V c).arrAt 4 cfg5.N = Cert.Gnn.comb (V c main_v101) (V c main_v73) (V c main_v12) (V c main_arg8) :=
  (dat5 (F := Ideal) V c).arrAt_eq_of_cover 4 _ (fun t _ => comb5_written V c t) comb5_rows_covered

end Cert.KernelIdeal.Reg

end
-- ==== Proof.RegPow.lean ====
/-
  The power transform.  Each of the ten grid points loads a block of 5000 rows of the 50000 × 128 array and stores,
  entry by entry, exp (2 · log (|x| + ε)) · s(x), where s(x) is the sign of x written as a choice between −1, 1 and x
  itself.  First the analysis on one extended real: that product is sign(x) · (|x| + ε)².  Then the entry of the
  stored block; then the blocks put side by side: the ten blocks fill the array, so after the last grid point the
  output array is the sign-keeping square of the input array at every index.
-/
import proofs.«142938_j78829829750856_1_alg».proof.Proof.Gen.KernelIdeal.Frame
import proofs.«142938_j78829829750856_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg.R6

open Cert.KernelIdeal Cert.KernelIdeal.Gen Idealize.ShloMosaic Idealize.ShloMosaic.TcCoe Idealize.ShloMosaic.ValueIdx Idealize.SL.Sem
open Idealize.ShloMosaic.Pipeline (Dat)

/-! ## The analysis: exp (2 · log a) is a², on the whole extended line -/

/-- The float word of two denotes the real number two. -/
theorem twoW_eq : Cert.Gnn.twoW = ((2 : ℝ) : EReal) := by
  simp [Ideal.ofBits, Ideal.ieee, -EReal.coe_mul]; norm_num

/-- The ε word denotes a positive real number. -/
theorem epsW_pos : ∃ e : ℝ, 0 < e ∧ Cert.Gnn.epsW = (e : EReal) := by
  simp [Ideal.ofBits, Ideal.ieee, -EReal.coe_mul]

/-- With a := |x| + ε: exp (2 · log a) = a ^ 2.  For a real x the number a is a positive real, so log a is the real
    logarithm, and a ^ 2 = exp (log a · 2) is the definition of a real power of a positive base.  At either
    infinity |x| = ⊤, so a = ⊤, log ⊤ = ⊤, 2 · ⊤ = ⊤, exp ⊤ = ⊤, and ⊤ ^ 2 = ⊤ since the exponent is positive. -/
theorem exp_two_log (x : EReal) :
    Ideal.exp (Cert.Gnn.twoW * Ideal.log (max x (-x) + Cert.Gnn.epsW))
      = Ideal.pow (max x (-x) + Cert.Gnn.epsW) Cert.Gnn.twoW := by
  obtain ⟨e, he, hε⟩ := epsW_pos
  rw [twoW_eq, hε]
  induction x using EReal.rec with
  | bot =>
    rw [EReal.neg_bot, max_eq_right bot_le, EReal.top_add_coe, Ideal.log_top,
      EReal.coe_mul_top_of_pos (by norm_num : (0 : ℝ) < 2), Ideal.exp_top, Ideal.pow_top,
      if_pos (by exact_mod_cast (by norm_num : (0 : ℝ) < 2))]
  | top =>
    rw [EReal.neg_top, max_eq_left bot_le, EReal.top_add_coe, Ideal.log_top,
      EReal.coe_mul_top_of_pos (by norm_num : (0 : ℝ) < 2), Ideal.exp_top, Ideal.pow_top,
      if_pos (by exact_mod_cast (by norm_num : (0 : ℝ) < 2))]
  | coe r =>
    have ha : 0 < max r (-r) + e := by
      have h1 := le_max_left r (-r); have h2 := le_max_right r (-r); linarith
    have hc : max (r : EReal) (-(r : EReal)) + (e : EReal) = ((max r (-r) + e : ℝ) : EReal) := by
      norm_cast
    rw [hc, Ideal.log_coe, if_neg (not_le.mpr ha), ← EReal.coe_mul, Ideal.exp_coe, Ideal.pow_coe_coe]
    exact congrArg _ ((congrArg Real.exp (mul_comm _ _)).trans (Real.rpow_def_of_pos ha 2).symm)

/-- One entry of the power transform.  The left side is the body's arithmetic at one entry x: exp (2 · log (|x| + ε))
    times the sign of x, the sign written as a choice — where |x| > 0, minus one or one as x < 0 or not; elsewhere x
    itself, which is then zero.  That choice is the sign of x at every extended real, and the first factor is
    (|x| + ε)² by the lemma above. -/
theorem pow_law (x : EReal) :
    Ideal.exp (Cert.Gnn.twoW * Ideal.log (max x (-x) + Cert.Gnn.epsW))
        * Scalar.select (Ideal.cmp .ogt (max x (-x)) Cert.Gnn.zeroW)
            (Scalar.select (Ideal.cmp .olt x Cert.Gnn.zeroW) (Ideal.ofBits .f32 0xBF800000#32) (Ideal.ofBits .f32 0x3F800000#32)) x
      = Ideal.sign x * Ideal.pow (max x (-x) + Cert.Gnn.epsW) Cert.Gnn.twoW := by
  rw [exp_two_log, mul_comm]
  exact congrArg (· * _) (Ideal.jnp_sign_eq_sign_f32 x)

/-! ## The body's arithmetic at an entry -/

/-- Every operation of the body acts entry by entry, so the value it stores at an entry is the power law's left
    side at that entry of the block it loaded. -/
theorem pay6_apply (x0 : Vec Ideal S5000x128 .f32) (j : S5000x128.Idx) :
    k6_pay1 x0 j = Ideal.sign (x0 j) * Ideal.pow (max (x0 j) (-(x0 j)) + Cert.Gnn.epsW) Cert.Gnn.twoW := by
  unfold k6_pay1
  simp only [shapeCast_self]
  exact pow_law (x0 j)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The two windows move together: at every grid point the input block and the output block have the same block
    index, which is the point's number along the rows (at most 9) and 0 along the columns. -/
theorem block_index6 : ∀ t : Fin cfg6.N, win6_0.index t (0 : Fin 2) = win6_1.index t (0 : Fin 2)
    ∧ win6_0.index t (1 : Fin 2) = win6_1.index t (1 : Fin 2)
    ∧ win6_1.index t (0 : Fin 2) ≤ 9 ∧ win6_1.index t (1 : Fin 2) = 0 :=
  (by decide +kernel : ∀ t : Fin grid6.N, _)

/-- Every one of the ten row blocks is some grid point's output block. -/
theorem block_onto6 : ∀ q0 : Fin 10, ∃ t : Fin cfg6.N, win6_1.index t = ![q0.val, 0] :=
  (by decide +kernel : ∀ q0 : Fin 10, ∃ t : Fin grid6.N, win6_1.index t = ![q0.val, 0])

/-- The input block at a point, read at a block coordinate, is the input array at the place the OUTPUT block puts
    that coordinate: row = block index × 5000 + the row inside the block, and the same for the column. -/
theorem read6 (c : Dev nD) (t : Fin cfg6.N) (j : S5000x128.Idx) :
    iblk6 (F := Ideal) V c 0 t j = V c main_v102 (((cfg6.win 1).blk t).view.emb j) := by
  obtain ⟨e0, e1, e2, e3⟩ := block_index6 t
  show V c main_v102 (((cfg6.win 0).blk t).view.emb j) = V c main_v102 (((cfg6.win 1).blk t).view.emb j)
  have h0 : ((cfg6.win 0).blk t).view.emb j = ((cfg6.win 1).blk t).view.emb j := by
    funext a; apply Fin.ext
    match a with
    | ⟨0, _⟩ => show win6_0.index t (0 : Fin 2) * 5000 + 1 * (j 0).val = win6_1.index t (0 : Fin 2) * 5000 + 1 * (j 0).val; omega
    | ⟨1, _⟩ => show win6_0.index t (1 : Fin 2) * 128 + 1 * (j 1).val = win6_1.index t (1 : Fin 2) * 128 + 1 * (j 1).val; omega
  rw [h0]

/-- What a grid point writes back is its block of the sign-keeping square of the input array. -/
theorem flushed6_eq (c : Dev nD) (t : Fin cfg6.N) :
    (dat6 (F := Ideal) V c).flushed 1 t
      = ((cfg6.win 1).blk t).view.read (Elt Ideal) (Cert.Gnn.signedSquare (V c main_v102)) := by
  show (cfg6.win 1).cut (grid6.coords t) ((dat6 (F := Ideal) V c).after 1 t) = _
  rw [after6_1]
  unfold out6_1
  rw [View.canon_unit_zero zero_offsets]
  simp only [View.ld_unit_zero (S := S5000x128) zero_offsets]
  funext j
  show k6_pay1 (iblk6 (F := Ideal) V c 0 t) j = Cert.Gnn.signedSquare (V c main_v102) (((cfg6.win 1).blk t).view.emb j)
  refine (pay6_apply (iblk6 (F := Ideal) V c 0 t) j).trans ?_
  rw [read6 V c t j]
  rfl

/-- An index of the array lies in a point's output block exactly when each coordinate lies in the block's range. -/
theorem mem_blk6 (t : Fin cfg6.N) (i : S50000x128.Idx) :
    i ∈ ((cfg6.win 1).blk t).view.set ↔ ∀ a : Fin 2, win6_1.index t a * S5000x128.size a ≤ (i a).val
      ∧ (i a).val < win6_1.index t a * S5000x128.size a + S5000x128.size a := by
  show i ∈ ((View.whole main_v103).slice (win6_1.rect t)).set ↔ _
  rw [View.set_slice_whole, Rect.mem_set_unit]
  exact Iff.rfl

/-- The ten blocks of 5000 rows fill the 50000 rows: row r lies in block r / 5000. -/
theorem cover6 (i : S50000x128.Idx) :
    ∃ t : Fin cfg6.N, (cfg6.win 1).flush t = true ∧ i ∈ ((cfg6.win 1).blk t).view.set := by
  have hi0 : (i 0).val < 50000 := (i 0).isLt
  have hi1 : (i 1).val < 128 := (i 1).isLt
  obtain ⟨t, ht⟩ := block_onto6 ⟨(i 0).val / 5000, by omega⟩
  have q0 : win6_1.index t (0 : Fin 2) = (i 0).val / 5000 := congrFun ht 0
  have q1 : win6_1.index t (1 : Fin 2) = 0 := congrFun ht 1
  refine ⟨t, flush6_1 t, ?_⟩
  rw [mem_blk6]
  intro a
  match a with
  | ⟨0, _⟩ => show win6_1.index t (0 : Fin 2) * 5000 ≤ (i 0).val ∧ (i 0).val < win6_1.index t (0 : Fin 2) * 5000 + 5000; omega
  | ⟨1, _⟩ => show win6_1.index t (1 : Fin 2) * 128 ≤ (i 1).val ∧ (i 1).val < win6_1.index t (1 : Fin 2) * 128 + 128; omega

end Cert.KernelIdeal.Reg.R6

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- After the region's last grid point the output array is the sign-keeping square of the input array: every grid
    point writes back its block of that function, and the blocks fill the array. -/
theorem final6 (c : Dev nD) : (dat6 (F := Ideal) V c).arrAt 1 cfg6.N = Cert.Gnn.signedSquare (V c main_v102) :=
  (dat6 (F := Ideal) V c).arrAt_eq_of_cover 1 (Cert.Gnn.signedSquare (V c main_v102))
    (fun t _ => R6.flushed6_eq V c t) R6.cover6

end Cert.KernelIdeal.Reg

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«142938_j78829829750856_1_alg».proof.Proof.LibPlainProduct
import proofs.«142938_j78829829750856_1_alg».proof.Proof.LibHostProduct
import proofs.«142938_j78829829750856_1_alg».proof.Proof.LibRowsProduct
import proofs.«142938_j78829829750856_1_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.RegDense7.lean ====
/-
  The first dense layer of the head.  The grid has a single point: the body loads the whole array of 512 graph rows,
  the whole 128 × 128 weight matrix and the whole bias, and stores, at (p, q), the sum over k of row p's entry k times
  the weight (k, q), plus the bias entry q, cut at zero.  First the stored value at an entry, as the dense layer of
  the loaded arrays; then the blocks: each window's one block is its whole array, so after the grid point the output
  array is the dense layer of the three input arrays at every index.
-/
import proofs.«142938_j78829829750856_1_alg».proof.Proof.Gen.KernelIdeal.Frame
import proofs.«142938_j78829829750856_1_alg».proof.Proof.Spec
import proofs.«142938_j78829829750856_1_alg».proof.Proof.LibDenseLayer
import proofs.«142938_j78829829750856_1_alg».proof.Proof.LibBroadcast
import Idealize.ShloMosaic.Lib.Pipeline.Value
import Idealize.ShloMosaic.Lib.ValueIdx
import Idealize.ShloMosaic.PureOps.Ideal.Laws

set_option maxRecDepth 16384

noncomputable section

namespace Cert.KernelIdeal.Reg.R7

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at an entry -/

/-- The stored value at (p, q): the tile product of the loaded rows with the weight matrix into a zero accumulator,
    plus the bias re-laid as a one-row array and repeated down the rows, cut at zero.  A change of float format is
    the identity at the ideal values, and the one-row array's entry q is the bias entry q, so this is the dense layer
    of row p at output q. -/
theorem pay7_apply (x0 : Vec Ideal S512x128 .f32) (x1 : Vec Ideal S128x128 .f32) (x2 : Vec Ideal S128 .f32)
    (p : Fin 512) (q : Fin 128) :
    k7_pay1 x0 x1 x2 (ix2 p q) = Cert.Gnn.dense x0 x1 x2 (ix2 p q) := by
  unfold k7_pay1
  simp only [shapeCast_self]
  refine (Cert.DenseLayer.tpu_dense_apply dot_S512x128_S128x128_S512x128_1_0_0_1_n_n_wf broadcasts_S1x128_S512x128
    (truncf .bf16 x0 bitsLt_bf16_f32) (truncf .bf16 x1 bitsLt_bf16_f32) (shapeCast S1x128 x2 shapeCasts_S128_S1x128) p q).trans ?_
  unfold Cert.DenseLayer.dense Cert.DenseLayer.affine Cert.Gnn.dense
  simp only [truncf_apply, Cert.Layout.shapeCast_row_apply]

/-! ## From blocks to the array -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The grid has one point, and there every window's block is its whole array: block index 0 on every axis. -/
theorem block_index7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0 :=
  (by decide +kernel : ∀ t : Fin grid7.N, _)

/-- The graph rows' block is the whole array of graph rows. -/
theorem read7_0 (c : Dev nD) (t : Fin cfg7.N) (j : S512x128.Idx) :
    iblk7 (F := Ideal) V c 0 t j = V c main_v123 j := by
  obtain ⟨e0, e1, -, -, -, -, -⟩ := block_index7 t
  show V c main_v123 (((cfg7.win 0).blk t).view.emb j) = V c main_v123 j
  have h : ((cfg7.win 0).blk t).view.emb j = j := by
    funext a; apply Fin.ext
    match a with
    | ⟨0, _⟩ => show win7_0.index t (0 : Fin 2) * 512 + 1 * (j 0).val = (j 0).val; omega
    | ⟨1, _⟩ => show win7_0.index t (1 : Fin 2) * 128 + 1 * (j 1).val = (j 1).val; omega
  rw [h]

/-- The weights' block is the whole weight matrix. -/
theorem read7_1 (c : Dev nD) (t : Fin cfg7.N) (j : S128x128.Idx) :
    iblk7 (F := Ideal) V c 1 t j = V c main_arg9 j := by
  obtain ⟨-, -, e0, e1, -, -, -⟩ := block_index7 t
  show V c main_arg9 (((cfg7.win 1).blk t).view.emb j) = V c main_arg9 j
  have h : ((cfg7.win 1).blk t).view.emb j = j := by
    funext a; apply Fin.ext
    match a with
    | ⟨0, _⟩ => show win7_1.index t (0 : Fin 2) * 128 + 1 * (j 0).val = (j 0).val; omega
    | ⟨1, _⟩ => show win7_1.index t (1 : Fin 2) * 128 + 1 * (j 1).val = (j 1).val; omega
  rw [h]

/-- The bias's block is the whole bias. -/
theorem read7_2 (c : Dev nD) (t : Fin cfg7.N) (j : S128.Idx) :
    iblk7 (F := Ideal) V c 2 t j = V c main_arg10 j := by
  obtain ⟨-, -, -, -, e0, -, -⟩ := block_index7 t
  show V c main_arg10 (((cfg7.win 2).blk t).view.emb j) = V c main_arg10 j
  have h : ((cfg7.win 2).blk t).view.emb j = j := by
    funext a; apply Fin.ext
    match a with
    | ⟨0, _⟩ => show win7_2.index t (0 : Fin 1) * 128 + 1 * (j 0).val = (j 0).val; omega
  rw [h]

/-- The output block's coordinate (p, q) is the array's index (p, q). -/
theorem emb7_3 (t : Fin cfg7.N) (p : Fin 512) (q : Fin 128) :
    ((cfg7.win 3).blk t).view.emb (ix2 p q) = ix2 p q := by
  obtain ⟨-, -, -, -, -, e0, e1⟩ := block_index7 t
  funext a; apply Fin.ext
  match a with
  | ⟨0, _⟩ => show win7_3.index t (0 : Fin 2) * 512 + 1 * p.val = p.val; omega
  | ⟨1, _⟩ => show win7_3.index t (1 : Fin 2) * 128 + 1 * q.val = q.val; omega

/-- What the grid point writes back is its block of the dense layer of the three input arrays. -/
theorem flushed7_eq (c : Dev nD) (t : Fin cfg7.N) :
    (dat7 (F := Ideal) V c).flushed 3 t
      = ((cfg7.win 3).blk t).view.read (Elt Ideal) (Cert.Gnn.dense (V c main_v123) (V c main_arg9) (V c main_arg10)) := by
  show (cfg7.win 3).cut (grid7.coords t) ((dat7 (F := Ideal) V c).after 3 t) = _
  rw [after7_3]
  unfold out7_3
  rw [View.canon_unit_zero zero_offsets2]
  simp only [View.ld_unit_zero (S := S512x128) zero_offsets2, View.ld_unit_zero (S := S128x128) zero_offsets2,
    View.ld_unit_zero (S := S128) zero_offsets1]
  have r0 : iblk7 (F := Ideal) V c 0 t = V c main_v123 := funext fun j => read7_0 V c t j
  have r1 : iblk7 (F := Ideal) V c 1 t = V c main_arg9 := funext fun j => read7_1 V c t j
  have r2 : iblk7 (F := Ideal) V c 2 t = V c main_arg10 := funext fun j => read7_2 V c t j
  rw [r0, r1, r2]
  funext j
  obtain ⟨p, q, rfl⟩ : ∃ (p : Fin 512) (q : Fin 128), j = ix2 p q := ⟨j 0, j 1, eq_ix2 j⟩
  show k7_pay1 (V c main_v123) (V c main_arg9) (V c main_arg10) (ix2 p q)
    = Cert.Gnn.dense (V c main_v123) (V c main_arg9) (V c main_arg10) (((cfg7.win 3).blk t).view.emb (ix2 p q))
  rw [emb7_3 t p q]
  exact pay7_apply (V c main_v123) (V c main_arg9) (V c main_arg10) p q

/-- An index of the array lies in the point's output block exactly when each coordinate lies in the block's range. -/
theorem mem_blk7 (t : Fin cfg7.N) (i : S512x128.Idx) :
    i ∈ ((cfg7.win 3).blk t).view.set ↔ ∀ a : Fin 2, win7_3.index t a * S512x128.size a ≤ (i a).val
      ∧ (i a).val < win7_3.index t a * S512x128.size a + S512x128.size a := by
  show i ∈ ((View.whole main_v124).slice (win7_3.rect t)).set ↔ _
  rw [View.set_slice_whole, Rect.mem_set_unit]
  exact Iff.rfl

/-- The one block is the whole array, so it holds every index. -/
theorem cover7 (i : S512x128.Idx) :
    ∃ t : Fin cfg7.N, (cfg7.win 3).flush t = true ∧ i ∈ ((cfg7.win 3).blk t).view.set := by
  have hi0 : (i 0).val < 512 := (i 0).isLt
  have hi1 : (i 1).val < 128 := (i 1).isLt
  have t : Fin cfg7.N := ⟨0, by decide⟩
  obtain ⟨-, -, -, -, -, e0, e1⟩ := block_index7 t
  refine ⟨t, flush7_3 t, ?_⟩
  rw [mem_blk7]
  intro a
  match a with
  | ⟨0, _⟩ => show win7_3.index t (0 : Fin 2) * 512 ≤ (i 0).val ∧ (i 0).val < win7_3.index t (0 : Fin 2) * 512 + 512; omega
  | ⟨1, _⟩ => show win7_3.index t (1 : Fin 2) * 128 ≤ (i 1).val ∧ (i 1).val < win7_3.index t (1 : Fin 2) * 128 + 128; omega

end Cert.KernelIdeal.Reg.R7

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- After the region's one grid point the output array is the dense layer of the graph rows, the weight matrix and
    the bias. -/
theorem final7 (c : Dev nD) :
    (dat7 (F := Ideal) V c).arrAt 3 cfg7.N = Cert.Gnn.dense (V c main_v123) (V c main_arg9) (V c main_arg10) :=
  (dat7 (F := Ideal) V c).arrAt_eq_of_cover 3 (Cert.Gnn.dense (V c main_v123) (V c main_arg9) (V c main_arg10))
    (fun t _ => R7.flushed7_eq V c t) R7.cover7

end Cert.KernelIdeal.Reg

end
-- ==== Proof.RegDense8.lean ====
/-
  The last affine map of the head.  The grid has a single point: the body loads the whole array of 512 rows of 128,
  the whole 128 × 64 weight matrix and the whole bias of 64, and stores, at (p, q), the sum over k of row p's entry k
  times the weight (k, q), plus the bias entry q.  First the stored value at an entry, as the affine map of the loaded
  arrays; then the blocks: each window's one block is its whole array, so after the grid point the output array is
  the affine map of the three input arrays at every index.
-/
import proofs.«142938_j78829829750856_1_alg».proof.Proof.Gen.KernelIdeal.Frame
import proofs.«142938_j78829829750856_1_alg».proof.Proof.Spec
import proofs.«142938_j78829829750856_1_alg».proof.Proof.LibDenseLayer
import proofs.«142938_j78829829750856_1_alg».proof.Proof.LibBroadcast
import Idealize.ShloMosaic.Lib.Pipeline.Value
import Idealize.ShloMosaic.Lib.ValueIdx
import Idealize.ShloMosaic.PureOps.Ideal.Laws

set_option maxRecDepth 16384

noncomputable section

namespace Cert.KernelIdeal.Reg.R8

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at an entry -/

/-- The stored value at (p, q): the tile product of the loaded rows with the weight matrix into a zero accumulator,
    plus the bias re-laid as a one-row array and repeated down the rows.  A change of float format is the identity
    at the ideal values, and the one-row array's entry q is the bias entry q, so this is the affine map of row p at
    output q. -/
theorem pay8_apply (x0 : Vec Ideal S512x128 .f32) (x1 : Vec Ideal S128x64 .f32) (x2 : Vec Ideal S64 .f32)
    (p : Fin 512) (q : Fin 64) :
    k8_pay1 x0 x1 x2 (ix2 p q) = Cert.Gnn.affineOut x0 x1 x2 (ix2 p q) := by
  unfold k8_pay1
  simp only [shapeCast_self]
  refine (Cert.DenseLayer.tpu_affine_apply dot_S512x128_S128x64_S512x64_1_0_0_1_n_n_wf broadcasts_S1x64_S512x64
    (truncf .bf16 x0 bitsLt_bf16_f32) (truncf .bf16 x1 bitsLt_bf16_f32) (shapeCast S1x64 x2 shapeCasts_S64_S1x64) p q).trans ?_
  unfold Cert.DenseLayer.affine Cert.Gnn.affineOut
  simp only [truncf_apply, Cert.Layout.shapeCast_row_apply]

/-! ## From blocks to the array -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The grid has one point, and there every window's block is its whole array: block index 0 on every axis. -/
theorem block_index8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0 :=
  (by decide +kernel : ∀ t : Fin grid8.N, _)

/-- The rows' block is the whole array of rows. -/
theorem read8_0 (c : Dev nD) (t : Fin cfg8.N) (j : S512x128.Idx) :
    iblk8 (F := Ideal) V c 0 t j = V c main_v124 j := by
  obtain ⟨e0, e1, -, -, -, -, -⟩ := block_index8 t
  show V c main_v124 (((cfg8.win 0).blk t).view.emb j) = V c main_v124 j
  have h : ((cfg8.win 0).blk t).view.emb j = j := by
    funext a; apply Fin.ext
    match a with
    | ⟨0, _⟩ => show win8_0.index t (0 : Fin 2) * 512 + 1 * (j 0).val = (j 0).val; omega
    | ⟨1, _⟩ => show win8_0.index t (1 : Fin 2) * 128 + 1 * (j 1).val = (j 1).val; omega
  rw [h]

/-- The weights' block is the whole weight matrix. -/
theorem read8_1 (c : Dev nD) (t : Fin cfg8.N) (j : S128x64.Idx) :
    iblk8 (F := Ideal) V c 1 t j = V c main_arg11 j := by
  obtain ⟨-, -, e0, e1, -, -, -⟩ := block_index8 t
  show V c main_arg11 (((cfg8.win 1).blk t).view.emb j) = V c main_arg11 j
  have h : ((cfg8.win 1).blk t).view.emb j = j := by
    funext a; apply Fin.ext
    match a with
    | ⟨0, _⟩ => show win8_1.index t (0 : Fin 2) * 128 + 1 * (j 0).val = (j 0).val; omega
    | ⟨1, _⟩ => show win8_1.index t (1 : Fin 2) * 64 + 1 * (j 1).val = (j 1).val; omega
  rw [h]

/-- The bias's block is the whole bias. -/
theorem read8_2 (c : Dev nD) (t : Fin cfg8.N) (j : S64.Idx) :
    iblk8 (F := Ideal) V c 2 t j = V c main_arg12 j := by
  obtain ⟨-, -, -, -, e0, -, -⟩ := block_index8 t
  show V c main_arg12 (((cfg8.win 2).blk t).view.emb j) = V c main_arg12 j
  have h : ((cfg8.win 2).blk t).view.emb j = j := by
    funext a; apply Fin.ext
    match a with
    | ⟨0, _⟩ => show win8_2.index t (0 : Fin 1) * 64 + 1 * (j 0).val = (j 0).val; omega
  rw [h]

/-- The output block's coordinate (p, q) is the array's index (p, q). -/
theorem emb8_3 (t : Fin cfg8.N) (p : Fin 512) (q : Fin 64) :
    ((cfg8.win 3).blk t).view.emb (ix2 p q) = ix2 p q := by
  obtain ⟨-, -, -, -, -, e0, e1⟩ := block_index8 t
  funext a; apply Fin.ext
  match a with
  | ⟨0, _⟩ => show win8_3.index t (0 : Fin 2) * 512 + 1 * p.val = p.val; omega
  | ⟨1, _⟩ => show win8_3.index t (1 : Fin 2) * 64 + 1 * q.val = q.val; omega

/-- What the grid point writes back is its block of the affine map of the three input arrays. -/
theorem flushed8_eq (c : Dev nD) (t : Fin cfg8.N) :
    (dat8 (F := Ideal) V c).flushed 3 t
      = ((cfg8.win 3).blk t).view.read (Elt Ideal) (Cert.Gnn.affineOut (V c main_v124) (V c main_arg11) (V c main_arg12)) := by
  show (cfg8.win 3).cut (grid8.coords t) ((dat8 (F := Ideal) V c).after 3 t) = _
  rw [after8_3]
  unfold out8_3
  rw [View.canon_unit_zero zero_offsets2]
  simp only [View.ld_unit_zero (S := S512x128) zero_offsets2, View.ld_unit_zero (S := S128x64) zero_offsets2,
    View.ld_unit_zero (S := S64) zero_offsets1]
  have r0 : iblk8 (F := Ideal) V c 0 t = V c main_v124 := funext fun j => read8_0 V c t j
  have r1 : iblk8 (F := Ideal) V c 1 t = V c main_arg11 := funext fun j => read8_1 V c t j
  have r2 : iblk8 (F := Ideal) V c 2 t = V c main_arg12 := funext fun j => read8_2 V c t j
  rw [r0, r1, r2]
  funext j
  obtain ⟨p, q, rfl⟩ : ∃ (p : Fin 512) (q : Fin 64), j = ix2 p q := ⟨j 0, j 1, eq_ix2 j⟩
  show k8_pay1 (V c main_v124) (V c main_arg11) (V c main_arg12) (ix2 p q)
    = Cert.Gnn.affineOut (V c main_v124) (V c main_arg11) (V c main_arg12) (((cfg8.win 3).blk t).view.emb (ix2 p q))
  rw [emb8_3 t p q]
  exact pay8_apply (V c main_v124) (V c main_arg11) (V c main_arg12) p q

/-- An index of the array lies in the point's output block exactly when each coordinate lies in the block's range. -/
theorem mem_blk8 (t : Fin cfg8.N) (i : S512x64.Idx) :
    i ∈ ((cfg8.win 3).blk t).view.set ↔ ∀ a : Fin 2, win8_3.index t a * S512x64.size a ≤ (i a).val
      ∧ (i a).val < win8_3.index t a * S512x64.size a + S512x64.size a := by
  show i ∈ ((View.whole main_v125).slice (win8_3.rect t)).set ↔ _
  rw [View.set_slice_whole, Rect.mem_set_unit]
  exact Iff.rfl

/-- The one block is the whole array, so it holds every index. -/
theorem cover8 (i : S512x64.Idx) :
    ∃ t : Fin cfg8.N, (cfg8.win 3).flush t = true ∧ i ∈ ((cfg8.win 3).blk t).view.set := by
  have hi0 : (i 0).val < 512 := (i 0).isLt
  have hi1 : (i 1).val < 64 := (i 1).isLt
  have t : Fin cfg8.N := ⟨0, by decide⟩
  obtain ⟨-, -, -, -, -, e0, e1⟩ := block_index8 t
  refine ⟨t, flush8_3 t, ?_⟩
  rw [mem_blk8]
  intro a
  match a with
  | ⟨0, _⟩ => show win8_3.index t (0 : Fin 2) * 512 ≤ (i 0).val ∧ (i 0).val < win8_3.index t (0 : Fin 2) * 512 + 512; omega
  | ⟨1, _⟩ => show win8_3.index t (1 : Fin 2) * 64 ≤ (i 1).val ∧ (i 1).val < win8_3.index t (1 : Fin 2) * 64 + 64; omega

end Cert.KernelIdeal.Reg.R8

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- After the region's one grid point the output array is the affine map of the rows, the weight matrix and the
    bias. -/
theorem final8 (c : Dev nD) :
    (dat8 (F := Ideal) V c).arrAt 3 cfg8.N = Cert.Gnn.affineOut (V c main_v124) (V c main_arg11) (V c main_arg12) :=
  (dat8 (F := Ideal) V c).arrAt_eq_of_cover 3 (Cert.Gnn.affineOut (V c main_v124) (V c main_arg11) (V c main_arg12))
    (fun t _ => R8.flushed8_eq V c t) R8.cover8

end Cert.KernelIdeal.Reg

end
-- ==== Proof.RefLinkProduct.lean ====
/-
  The reference's matrix product of the node features is the specification's.

  Read at (r, q), the host's product of a [50000,128] array with a [128,128] matrix is the sum over the shared
  coordinate k of x (r, k) · w (k, q): the specification's `mm`, whatever the two operands are.
-/
import proofs.«142938_j78829829750856_1_alg».proof.Proof.Spec
import proofs.«142938_j78829829750856_1_alg».proof.Proof.Gen.ReferenceIdeal.Read

set_option maxRecDepth 16384

noncomputable section

namespace Cert.Gnn.Link

open Idealize.ShloMosaic Idealize.ShloMosaic.ValueIdx Cert.ReferenceIdeal Cert.ReferenceIdeal.Read

/-- The host's product of a [50000,128] array with a [128,128] matrix is the plain sum over the shared coordinate. -/
theorem mm_eq (x : Cert.Gnn.Nodes.Idx → EReal) (w : Cert.Gnn.Sq.Idx → EReal) : Cert.Gnn.mm x w = Cert.ReferenceIdeal.Read.val_main_v11 (F := Ideal) x w := by
  funext i
  rw [val_main_v11_apply]
  refine Finset.sum_congr rfl fun k _ => ?_
  have e1 : lidx_main_v11 i k = ix2 (i 0) k := funext fun a => by
    match a with
    | ⟨0, _⟩ => rfl
    | ⟨1, _⟩ => rfl
  have e2 : ridx_main_v11 i k = ix2 k (i 1) := funext fun a => by
    match a with
    | ⟨0, _⟩ => rfl
    | ⟨1, _⟩ => rfl
  rw [e1, e2]
  rfl

end Cert.Gnn.Link

end
-- ==== Proof.RefLinkCombine.lean ====
/-
  The reference's combine steps are the specification's.

  After the scatter-add of the messages the reference adds, entry by entry, the layer's product times the node's
  self-loop weight — the squared inverse square root of the degree, laid out as a column and repeated along the
  row — and the bias, laid out as a row and repeated down the rows; the first two layers then take the maximum with
  a repeated zero.  Read at (r, q) the repeated column contributes its entry of row r and the repeated row its entry
  of column q, which is the specification's `comb` (with the cut: `combRelu`).
-/
import proofs.«142938_j78829829750856_1_alg».proof.Proof.Spec
import proofs.«142938_j78829829750856_1_alg».proof.Proof.Gen.ReferenceIdeal.Read

set_option maxRecDepth 16384

noncomputable section

namespace Cert.Gnn.Link

open Idealize.ShloMosaic Idealize.ShloMosaic.ValueIdx Cert.ReferenceIdeal Cert.ReferenceIdeal.Read

/-- One entry of a combine step with its cut, in the host's operations: the same arithmetic. -/
theorem combRelu_entry (a b d e : EReal) :
    max ((a + b * (d * d)) + e) Cert.Gnn.zeroW
      = FloatOps.maximumf (F := Ideal) (φ := .f32) (FloatOps.addf (F := Ideal) (φ := .f32) (FloatOps.addf (F := Ideal) (φ := .f32) a (FloatOps.mulf (F := Ideal) (φ := .f32) b (FloatOps.mulf (F := Ideal) (φ := .f32) d d))) e) (FloatOps.ofBits (F := Ideal) .f32 0x00000000#32) := rfl

/-- One entry of a combine step without the cut. -/
theorem comb_entry (a b d e : EReal) :
    (a + b * (d * d)) + e
      = FloatOps.addf (F := Ideal) (φ := .f32) (FloatOps.addf (F := Ideal) (φ := .f32) a (FloatOps.mulf (F := Ideal) (φ := .f32) b (FloatOps.mulf (F := Ideal) (φ := .f32) d d))) e := rfl

/-- The specification's combine step with its cut, at one entry. -/
theorem combRelu_apply (A B : Cert.Gnn.Nodes.Idx → EReal) (s : Cert.Gnn.Col.Idx → EReal) (b : Cert.Gnn.Bias.Idx → EReal) (i : Cert.Gnn.Nodes.Idx) :
    Cert.Gnn.combRelu A B s b i = max ((A i + B i * s (ix2 (i 0) (0 : Fin 1))) + b (ix1 (i 1))) Cert.Gnn.zeroW := rfl

/-- The specification's combine step, at one entry. -/
theorem comb_apply (A B : Cert.Gnn.Nodes.Idx → EReal) (s : Cert.Gnn.Col.Idx → EReal) (b : Cert.Gnn.Bias.Idx → EReal) (i : Cert.Gnn.Nodes.Idx) :
    Cert.Gnn.comb A B s b i = (A i + B i * s (ix2 (i 0) (0 : Fin 1))) + b (ix1 (i 1)) := rfl

/-- The first layer's combine step with its cut at zero. -/
theorem comb1_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (s : Cert.Gnn.Col.Idx → EReal) (hs : ∀ p : Fin 50000, s (ix2 p (0 : Fin 1)) = (Cert.ReferenceIdeal.Read.val_main_v10 (F := Ideal) x1) (ix1 p) * (Cert.ReferenceIdeal.Read.val_main_v10 (F := Ideal) x1) (ix1 p)) :
    Cert.Gnn.combRelu (Cert.ReferenceIdeal.Read.val_main_v39 (F := Ideal) x0 x1 x3) (Cert.ReferenceIdeal.Read.val_main_v11 (F := Ideal) x0 x3) s x4 = (Cert.ReferenceIdeal.Read.val_main_v48 (F := Ideal) x0 x1 x3 x4) := by
  funext i
  rw [val_main_v48_apply, val_main_v47_apply, val_main_v44_apply, val_main_v43_apply, val_main_v42_apply, val_main_v41_apply, val_main_v40_apply, val_main_v46_apply, val_main_v45_apply, val_main_call0_v0_apply, val_main_call0_cst_apply]
  have e1 : idx_main_v41 (idx_main_v42 i) = ix1 (i 0) := funext fun a => by
    match a with
    | ⟨0, _⟩ => rfl
  have e2 : idx_main_v45 (idx_main_v46 i) = ix1 (i 1) := funext fun a => by
    match a with
    | ⟨0, _⟩ => rfl
  rw [e1, e2, combRelu_apply, hs (i 0)]
  exact combRelu_entry _ _ _ _

/-- The second layer's combine step with its cut at zero. -/
theorem comb2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (s : Cert.Gnn.Col.Idx → EReal) (hs : ∀ p : Fin 50000, s (ix2 p (0 : Fin 1)) = (Cert.ReferenceIdeal.Read.val_main_v10 (F := Ideal) x1) (ix1 p) * (Cert.ReferenceIdeal.Read.val_main_v10 (F := Ideal) x1) (ix1 p)) :
    Cert.Gnn.combRelu (Cert.ReferenceIdeal.Read.val_main_v77 (F := Ideal) x0 x1 x3 x4 x5) (Cert.ReferenceIdeal.Read.val_main_v49 (F := Ideal) x0 x1 x3 x4 x5) s x6 = (Cert.ReferenceIdeal.Read.val_main_v86 (F := Ideal) x0 x1 x3 x4 x5 x6) := by
  funext i
  rw [val_main_v86_apply, val_main_v85_apply, val_main_v82_apply, val_main_v81_apply, val_main_v80_apply, val_main_v79_apply, val_main_v78_apply, val_main_v84_apply, val_main_v83_apply, val_main_call1_v0_apply, val_main_call1_cst_apply]
  have e1 : idx_main_v79 (idx_main_v80 i) = ix1 (i 0) := funext fun a => by
    match a with
    | ⟨0, _⟩ => rfl
  have e2 : idx_main_v83 (idx_main_v84 i) = ix1 (i 1) := funext fun a => by
    match a with
    | ⟨0, _⟩ => rfl
  rw [e1, e2, combRelu_apply, hs (i 0)]
  exact combRelu_entry _ _ _ _

/-- The third layer's combine step, which has no cut. -/
theorem comb3_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (s : Cert.Gnn.Col.Idx → EReal) (hs : ∀ p : Fin 50000, s (ix2 p (0 : Fin 1)) = (Cert.ReferenceIdeal.Read.val_main_v10 (F := Ideal) x1) (ix1 p) * (Cert.ReferenceIdeal.Read.val_main_v10 (F := Ideal) x1) (ix1 p)) :
    Cert.Gnn.comb (Cert.ReferenceIdeal.Read.val_main_v115 (F := Ideal) x0 x1 x3 x4 x5 x6 x7) (Cert.ReferenceIdeal.Read.val_main_v87 (F := Ideal) x0 x1 x3 x4 x5 x6 x7) s x8 = (Cert.ReferenceIdeal.Read.val_main_v123 (F := Ideal) x0 x1 x3 x4 x5 x6 x7 x8) := by
  funext i
  rw [val_main_v123_apply, val_main_v120_apply, val_main_v119_apply, val_main_v118_apply, val_main_v117_apply, val_main_v116_apply, val_main_v122_apply, val_main_v121_apply]
  have e1 : idx_main_v117 (idx_main_v118 i) = ix1 (i 0) := funext fun a => by
    match a with
    | ⟨0, _⟩ => rfl
  have e2 : idx_main_v121 (idx_main_v122 i) = ix1 (i 1) := funext fun a => by
    match a with
    | ⟨0, _⟩ => rfl
  rw [e1, e2, comb_apply, hs (i 0)]
  exact comb_entry _ _ _ _

end Cert.Gnn.Link

end
-- ==== Proof.RefLinkHead.lean ====
/-
  The reference's sign-keeping square and its two dense layers are the specification's.

  Entry by entry the host's sign, absolute value and power are the functions of one extended real that the
  specification's `signedSquare` names.  A dense layer of the head is the host's product — the plain sum over the
  shared coordinate — plus the bias entry of the column, cut at zero in the first of the two.
-/
import proofs.«142938_j78829829750856_1_alg».proof.Proof.Spec
import proofs.«142938_j78829829750856_1_alg».proof.Proof.Gen.ReferenceIdeal.Read

set_option maxRecDepth 16384

noncomputable section

namespace Cert.Gnn.Link

open Idealize.ShloMosaic Idealize.ShloMosaic.ValueIdx Cert.ReferenceIdeal Cert.ReferenceIdeal.Read

/-- One entry of the sign-keeping square, in the host's operations: the same functions of one extended real. -/
theorem signedSquare_entry (t : EReal) :
    Ideal.sign t * Ideal.pow (max t (-t) + Cert.Gnn.epsW) Cert.Gnn.twoW
      = FloatOps.mulf (F := Ideal) (φ := .f32) (FloatOps.hostUnary (F := Ideal) (φ := .f32) .sign t)
          (FloatOps.hostPowf (F := Ideal) (φ := .f32) (FloatOps.addf (F := Ideal) (φ := .f32) (FloatOps.hostAbsf (F := Ideal) (φ := .f32) t) (FloatOps.ofBits (F := Ideal) .f32 0x358637BD#32)) (FloatOps.ofBits (F := Ideal) .f32 0x40000000#32)) := rfl

/-- The specification's sign-keeping square at one entry. -/
theorem signedSquare_apply (x : Cert.Gnn.Nodes.Idx → EReal) (i : Cert.Gnn.Nodes.Idx) :
    Cert.Gnn.signedSquare x i = Ideal.sign (x i) * Ideal.pow (max (x i) (-(x i)) + Cert.Gnn.epsW) Cert.Gnn.twoW := rfl

/-- One entry of a dense layer, in the host's operations. -/
theorem dense_entry (S e : EReal) :
    max (S + e) Cert.Gnn.zeroW = FloatOps.maximumf (F := Ideal) (φ := .f32) (FloatOps.addf (F := Ideal) (φ := .f32) S e) (FloatOps.ofBits (F := Ideal) .f32 0x00000000#32) := rfl

/-- One entry of an affine map, in the host's operations. -/
theorem affine_entry (S e : EReal) : S + e = FloatOps.addf (F := Ideal) (φ := .f32) S e := rfl

/-- The specification's dense layer at one entry. -/
theorem dense_apply (z : Cert.Gnn.Graphs.Idx → EReal) (w : Cert.Gnn.Sq.Idx → EReal) (b : Cert.Gnn.Bias.Idx → EReal) (i : Cert.Gnn.Graphs.Idx) :
    Cert.Gnn.dense z w b i = max ((∑ k : Fin 128, z (ix2 (i 0) k) * w (ix2 k (i 1))) + b (ix1 (i 1))) Cert.Gnn.zeroW := rfl

/-- The specification's last affine map at one entry. -/
theorem affineOut_apply (z : Cert.Gnn.Graphs.Idx → EReal) (w : Cert.Gnn.WOut.Idx → EReal) (b : Cert.Gnn.BiasOut.Idx → EReal) (i : Cert.Gnn.Out.Idx) :
    Cert.Gnn.affineOut z w b i = (∑ k : Fin 128, z (ix2 (i 0) k) * w (ix2 k (i 1))) + b (ix1 (i 1)) := rfl

/-- The sign-keeping square, entry by entry. -/
theorem pow_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    Cert.Gnn.signedSquare (Cert.ReferenceIdeal.Read.val_main_v123 (F := Ideal) x0 x1 x3 x4 x5 x6 x7 x8) = (Cert.ReferenceIdeal.Read.val_main_v130 (F := Ideal) x0 x1 x3 x4 x5 x6 x7 x8) := by
  funext i
  rw [val_main_v130_apply, val_main_v129_apply, val_main_v128_apply, val_main_v127_apply, val_main_v126_apply, val_main_v125_apply, val_main_v124_apply, val_main_cst_22_apply, val_main_cst_23_apply, signedSquare_apply]
  exact signedSquare_entry _

/-- The head's dense layer: the host's product plus the bias row, cut at zero. -/
theorem dense_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Cert.Gnn.dense (Cert.ReferenceIdeal.Read.val_main_v150 (F := Ideal) x0 x1 x2 x3 x4 x5 x6 x7 x8) x9 x10 = (Cert.ReferenceIdeal.Read.val_main_v155 (F := Ideal) x0 x1 x2 x3 x4 x5 x6 x7 x8 x9 x10) := by
  funext i
  rw [val_main_v155_apply, val_main_v154_apply, val_main_v153_apply, val_main_v152_apply, val_main_call3_v0_apply, val_main_call3_cst_apply, val_main_v151_apply]
  have e1 : ∀ k : Fin 128, lidx_main_v151 i k = ix2 (i 0) k := fun k => funext fun a => by
    match a with
    | ⟨0, _⟩ => rfl
    | ⟨1, _⟩ => rfl
  have e2 : ∀ k : Fin 128, ridx_main_v151 i k = ix2 k (i 1) := fun k => funext fun a => by
    match a with
    | ⟨0, _⟩ => rfl
    | ⟨1, _⟩ => rfl
  have e3 : idx_main_v152 (idx_main_v153 i) = ix1 (i 1) := funext fun a => by
    match a with
    | ⟨0, _⟩ => rfl
  rw [e3, dense_apply]
  generalize (Cert.ReferenceIdeal.Read.val_main_v150 (F := Ideal) x0 x1 x2 x3 x4 x5 x6 x7 x8) = z
  have hsum : (∑ k : Fin 128, z (lidx_main_v151 i k) * x9 (ridx_main_v151 i k)) = ∑ k : Fin 128, z (ix2 (i 0) k) * x9 (ix2 k (i 1)) :=
    Finset.sum_congr rfl fun k _ => by rw [e1 k, e2 k]; rfl
  rw [hsum]
  exact dense_entry _ _

/-- The last affine map: the host's product plus the bias row. -/
theorem out_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) :
    Cert.Gnn.affineOut (Cert.ReferenceIdeal.Read.val_main_v155 (F := Ideal) x0 x1 x2 x3 x4 x5 x6 x7 x8 x9 x10) x11 x12 = (Cert.ReferenceIdeal.Read.val_main_v159 (F := Ideal) x0 x1 x2 x3 x4 x5 x6 x7 x8 x9 x10 x11 x12) := by
  funext i
  rw [val_main_v159_apply, val_main_v158_apply, val_main_v157_apply, val_main_v156_apply]
  have e1 : ∀ k : Fin 128, lidx_main_v156 i k = ix2 (i 0) k := fun k => funext fun a => by
    match a with
    | ⟨0, _⟩ => rfl
    | ⟨1, _⟩ => rfl
  have e2 : ∀ k : Fin 128, ridx_main_v156 i k = ix2 k (i 1) := fun k => funext fun a => by
    match a with
    | ⟨0, _⟩ => rfl
    | ⟨1, _⟩ => rfl
  have e3 : idx_main_v157 (idx_main_v158 i) = ix1 (i 1) := funext fun a => by
    match a with
    | ⟨0, _⟩ => rfl
  rw [e3, affineOut_apply]
  generalize (Cert.ReferenceIdeal.Read.val_main_v155 (F := Ideal) x0 x1 x2 x3 x4 x5 x6 x7 x8 x9 x10) = z
  have hsum : (∑ k : Fin 128, z (lidx_main_v156 i k) * x11 (ridx_main_v156 i k)) = ∑ k : Fin 128, z (ix2 (i 0) k) * x11 (ix2 k (i 1)) :=
    Finset.sum_congr rfl fun k _ => by rw [e1 k, e2 k]; rfl
  rw [hsum]
  exact affine_entry _ _

end Cert.Gnn.Link

end
-- ==== Proof.Chain.lean ====
/-
  The idealized kernel computes the reference's result, array by array.

  The program runs fifteen segments: stretches of host operations and nine device regions.  At each boundary every
  buffer that a later segment still reads holds a stage of the reference computation, as a function of the launch
  arguments: the source and destination node numbers and the inverse square roots of the degrees after the first
  stretch; a layer's product after its first region (the region's output array is the product, entry by entry the
  plain sum the host's product is); the aggregated messages after the gather, scale and scatter-add stretch, which is
  the reference's own chain of host operations applied to equal operands; the combined and cut features after the
  layer's second region; the sign-keeping squares after the seventh region; the pooled, re-rooted and cut graph rows
  after the two pooling stretches; and the two dense layers after the last two regions.  A buffer that a segment
  neither writes nor owns as an output keeps its contents across it.  The last boundary's result buffer is therefore
  the reference's result stage.
-/
import proofs.«142938_j78829829750856_1_alg».proof.Proof.Gen.KernelIdeal.Frame
import proofs.«142938_j78829829750856_1_alg».proof.Proof.Gen.ReferenceIdeal.Read
import proofs.«142938_j78829829750856_1_alg».proof.Proof.Spec
import proofs.«142938_j78829829750856_1_alg».proof.Proof.LibHostKept
import proofs.«142938_j78829829750856_1_alg».proof.Proof.LibBroadcast
import proofs.«142938_j78829829750856_1_alg».proof.Proof.RegMM0
import proofs.«142938_j78829829750856_1_alg».proof.Proof.RegMM2
import proofs.«142938_j78829829750856_1_alg».proof.Proof.RegMM4
import proofs.«142938_j78829829750856_1_alg».proof.Proof.RegComb1
import proofs.«142938_j78829829750856_1_alg».proof.Proof.RegComb3
import proofs.«142938_j78829829750856_1_alg».proof.Proof.RegComb5
import proofs.«142938_j78829829750856_1_alg».proof.Proof.RegPow
import proofs.«142938_j78829829750856_1_alg».proof.Proof.RegDense7
import proofs.«142938_j78829829750856_1_alg».proof.Proof.RegDense8
import proofs.«142938_j78829829750856_1_alg».proof.Proof.RefLinkProduct
import proofs.«142938_j78829829750856_1_alg».proof.Proof.RefLinkCombine
import proofs.«142938_j78829829750856_1_alg».proof.Proof.RefLinkHead
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem
open Idealize.ShloMosaic.StableHlo Cert.Kept

variable (m : (ℓ : Loc nD τ sig) → Buf (Elt Ideal) ℓ) (ρ : Dev nD → PrngReg) (c : Dev nD)

/-- The self-loop weights of the nodes as the region reads them: the squares d·d of the inverse square roots of the
    degrees, re-laid as a one-column array. -/
def selfScale (d : FVec Ideal S50000 .f32) : FVec Ideal S50000x1 .f32 :=
  shapeCast S50000x1 (mulf d d) shapeCasts_S50000_S50000x1

/-- Entry (p, 0) of that column is d p · d p. -/
theorem selfScale_apply (d : FVec Ideal S50000 .f32) (p : Fin 50000) :
    selfScale d (ValueIdx.ix2 p (0 : Fin 1)) = d (ValueIdx.ix1 p) * d (ValueIdx.ix1 p) := by
  unfold selfScale
  rw [Cert.Layout.shapeCast_col_apply]
  rfl

theorem at0_arg0 : W0 m ρ c (Proc.devRef .tc main_arg0) = (m ((c : Thread nD τ).loc main_arg0)) := rfl

theorem at0_arg2 : W0 m ρ c (Proc.devRef .tc main_arg2) = (m ((c : Thread nD τ).loc main_arg2)) := rfl

theorem at0_arg3 : W0 m ρ c (Proc.devRef .tc main_arg3) = (m ((c : Thread nD τ).loc main_arg3)) := rfl

theorem at0_arg4 : W0 m ρ c (Proc.devRef .tc main_arg4) = (m ((c : Thread nD τ).loc main_arg4)) := rfl

theorem at0_arg5 : W0 m ρ c (Proc.devRef .tc main_arg5) = (m ((c : Thread nD τ).loc main_arg5)) := rfl

theorem at0_arg6 : W0 m ρ c (Proc.devRef .tc main_arg6) = (m ((c : Thread nD τ).loc main_arg6)) := rfl

theorem at0_arg7 : W0 m ρ c (Proc.devRef .tc main_arg7) = (m ((c : Thread nD τ).loc main_arg7)) := rfl

theorem at0_arg8 : W0 m ρ c (Proc.devRef .tc main_arg8) = (m ((c : Thread nD τ).loc main_arg8)) := rfl

theorem at0_arg9 : W0 m ρ c (Proc.devRef .tc main_arg9) = (m ((c : Thread nD τ).loc main_arg9)) := rfl

theorem at0_arg10 : W0 m ρ c (Proc.devRef .tc main_arg10) = (m ((c : Thread nD τ).loc main_arg10)) := rfl

theorem at0_arg11 : W0 m ρ c (Proc.devRef .tc main_arg11) = (m ((c : Thread nD τ).loc main_arg11)) := rfl

theorem at0_arg12 : W0 m ρ c (Proc.devRef .tc main_arg12) = (m ((c : Thread nD τ).loc main_arg12)) := rfl

theorem at1_v1 : W1 m ρ c (Proc.devRef .tc main_v1) = (Cert.ReferenceIdeal.Read.val_main_v1 (F := Ideal) (m ((c : Thread nD τ).loc main_arg1))) := by
  dsimp only [W1, hostOps0]
  after_results
  rfl

theorem at1_v3 : W1 m ρ c (Proc.devRef .tc main_v3) = (Cert.ReferenceIdeal.Read.val_main_v3 (F := Ideal) (m ((c : Thread nD τ).loc main_arg1))) := by
  dsimp only [W1, hostOps0]
  after_results
  rfl

theorem at1_v10 : W1 m ρ c (Proc.devRef .tc main_v10) = (Cert.ReferenceIdeal.Read.val_main_v10 (F := Ideal) (m ((c : Thread nD τ).loc main_arg1))) := by
  dsimp only [W1, hostOps0]
  after_results
  rfl

theorem at1_v12 : W1 m ρ c (Proc.devRef .tc main_v12) = (selfScale (Cert.ReferenceIdeal.Read.val_main_v10 (F := Ideal) (m ((c : Thread nD τ).loc main_arg1)))) := by
  dsimp only [W1, hostOps0]
  after_results
  rfl

theorem at1_arg0 : W1 m ρ c (Proc.devRef .tc main_arg0) = (m ((c : Thread nD τ).loc main_arg0)) := by
  have h0 := (by host_kept hostOps0 : W1 m ρ c (Proc.devRef .tc main_arg0) = W0 m ρ c (Proc.devRef .tc main_arg0))
  exact h0.trans (at0_arg0 m ρ c)

theorem at1_arg3 : W1 m ρ c (Proc.devRef .tc main_arg3) = (m ((c : Thread nD τ).loc main_arg3)) := by
  have h0 := (by host_kept hostOps0 : W1 m ρ c (Proc.devRef .tc main_arg3) = W0 m ρ c (Proc.devRef .tc main_arg3))
  exact h0.trans (at0_arg3 m ρ c)

theorem at2_v13 : W2 m ρ c (Proc.devRef .tc main_v13) = (Cert.ReferenceIdeal.Read.val_main_v11 (F := Ideal) (m ((c : Thread nD τ).loc main_arg0)) (m ((c : Thread nD τ).loc main_arg3))) := by
  have h := W2_arr m ρ c 2
  have e : (dat0 (F := Ideal) (V1 m ρ) c).arrAt 2 cfg0.N = Cert.Gnn.mm (W1 m ρ c (Proc.devRef .tc main_arg0)) (W1 m ρ c (Proc.devRef .tc main_arg3)) := Reg.final0 (V1 m ρ) c
  rw [at1_arg0 m ρ c, at1_arg3 m ρ c] at e
  exact h.trans (e.trans (Cert.Gnn.Link.mm_eq _ _))

theorem at2_v1 : W2 m ρ c (Proc.devRef .tc main_v1) = (Cert.ReferenceIdeal.Read.val_main_v1 (F := Ideal) (m ((c : Thread nD τ).loc main_arg1))) := by
  have h1 := (W2_of_ne m ρ c main_v1 (by decide) : W2 m ρ c (Proc.devRef .tc main_v1) = W1 m ρ c (Proc.devRef .tc main_v1))
  exact h1.trans (at1_v1 m ρ c)

theorem at2_v3 : W2 m ρ c (Proc.devRef .tc main_v3) = (Cert.ReferenceIdeal.Read.val_main_v3 (F := Ideal) (m ((c : Thread nD τ).loc main_arg1))) := by
  have h1 := (W2_of_ne m ρ c main_v3 (by decide) : W2 m ρ c (Proc.devRef .tc main_v3) = W1 m ρ c (Proc.devRef .tc main_v3))
  exact h1.trans (at1_v3 m ρ c)

theorem at2_v10 : W2 m ρ c (Proc.devRef .tc main_v10) = (Cert.ReferenceIdeal.Read.val_main_v10 (F := Ideal) (m ((c : Thread nD τ).loc main_arg1))) := by
  have h1 := (W2_of_ne m ρ c main_v10 (by decide) : W2 m ρ c (Proc.devRef .tc main_v10) = W1 m ρ c (Proc.devRef .tc main_v10))
  exact h1.trans (at1_v10 m ρ c)

set_option maxHeartbeats 4000000 in
theorem at3_v41 : W3 m ρ c (Proc.devRef .tc main_v41) = (Cert.ReferenceIdeal.Read.val_main_v39 (F := Ideal) (m ((c : Thread nD τ).loc main_arg0)) (m ((c : Thread nD τ).loc main_arg1)) (m ((c : Thread nD τ).loc main_arg3))) := by
  dsimp only [W3, hostOps1]
  after_results_simp
  rw [at2_v13 m ρ c, at2_v10 m ρ c, at2_v1 m ρ c, at2_v3 m ρ c]
  rfl

theorem at3_v13 : W3 m ρ c (Proc.devRef .tc main_v13) = (Cert.ReferenceIdeal.Read.val_main_v11 (F := Ideal) (m ((c : Thread nD τ).loc main_arg0)) (m ((c : Thread nD τ).loc main_arg3))) := by
  have h2 := (by host_kept hostOps1 : W3 m ρ c (Proc.devRef .tc main_v13) = W2 m ρ c (Proc.devRef .tc main_v13))
  exact h2.trans (at2_v13 m ρ c)

theorem at3_v12 : W3 m ρ c (Proc.devRef .tc main_v12) = (selfScale (Cert.ReferenceIdeal.Read.val_main_v10 (F := Ideal) (m ((c : Thread nD τ).loc main_arg1)))) := by
  have h2 := (by host_kept hostOps1 : W3 m ρ c (Proc.devRef .tc main_v12) = W2 m ρ c (Proc.devRef .tc main_v12))
  have h1 := (W2_of_ne m ρ c main_v12 (by decide) : W2 m ρ c (Proc.devRef .tc main_v12) = W1 m ρ c (Proc.devRef .tc main_v12))
  exact h2.trans (h1.trans (at1_v12 m ρ c))

theorem at3_arg4 : W3 m ρ c (Proc.devRef .tc main_arg4) = (m ((c : Thread nD τ).loc main_arg4)) := by
  have h2 := (by host_kept hostOps1 : W3 m ρ c (Proc.devRef .tc main_arg4) = W2 m ρ c (Proc.devRef .tc main_arg4))
  have h1 := (W2_of_ne m ρ c main_arg4 (by decide) : W2 m ρ c (Proc.devRef .tc main_arg4) = W1 m ρ c (Proc.devRef .tc main_arg4))
  have h0 := (by host_kept hostOps0 : W1 m ρ c (Proc.devRef .tc main_arg4) = W0 m ρ c (Proc.devRef .tc main_arg4))
  exact h2.trans (h1.trans (h0.trans (at0_arg4 m ρ c)))

theorem at4_v42 : W4 m ρ c (Proc.devRef .tc main_v42) = (Cert.ReferenceIdeal.Read.val_main_v48 (F := Ideal) (m ((c : Thread nD τ).loc main_arg0)) (m ((c : Thread nD τ).loc main_arg1)) (m ((c : Thread nD τ).loc main_arg3)) (m ((c : Thread nD τ).loc main_arg4))) := by
  have h := W4_arr m ρ c 4
  have e : (dat1 (F := Ideal) (V3 m ρ) c).arrAt 4 cfg1.N = Cert.Gnn.combRelu (W3 m ρ c (Proc.devRef .tc main_v41)) (W3 m ρ c (Proc.devRef .tc main_v13)) (W3 m ρ c (Proc.devRef .tc main_v12)) (W3 m ρ c (Proc.devRef .tc main_arg4)) := Reg.final1 (V3 m ρ) c
  rw [at3_v41 m ρ c, at3_v13 m ρ c, at3_v12 m ρ c, at3_arg4 m ρ c] at e
  exact h.trans (e.trans (Cert.Gnn.Link.comb1_eq (m ((c : Thread nD τ).loc main_arg0)) (m ((c : Thread nD τ).loc main_arg1)) (m ((c : Thread nD τ).loc main_arg3)) (m ((c : Thread nD τ).loc main_arg4)) _ (selfScale_apply _)))

theorem at4_arg5 : W4 m ρ c (Proc.devRef .tc main_arg5) = (m ((c : Thread nD τ).loc main_arg5)) := by
  have h3 := (W4_of_ne m ρ c main_arg5 (by decide) : W4 m ρ c (Proc.devRef .tc main_arg5) = W3 m ρ c (Proc.devRef .tc main_arg5))
  have h2 := (by host_kept hostOps1 : W3 m ρ c (Proc.devRef .tc main_arg5) = W2 m ρ c (Proc.devRef .tc main_arg5))
  have h1 := (W2_of_ne m ρ c main_arg5 (by decide) : W2 m ρ c (Proc.devRef .tc main_arg5) = W1 m ρ c (Proc.devRef .tc main_arg5))
  have h0 := (by host_kept hostOps0 : W1 m ρ c (Proc.devRef .tc main_arg5) = W0 m ρ c (Proc.devRef .tc main_arg5))
  exact h3.trans (h2.trans (h1.trans (h0.trans (at0_arg5 m ρ c))))

theorem at5_v43 : W5 m ρ c (Proc.devRef .tc main_v43) = (Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  have h := W5_arr m ρ c 2
  have e : (dat2 (F := Ideal) (V4 m ρ) c).arrAt 2 cfg2.N = Cert.Gnn.mm (W4 m ρ c (Proc.devRef .tc main_v42)) (W4 m ρ c (Proc.devRef .tc main_arg5)) := Reg.final2 (V4 m ρ) c
  rw [at4_v42 m ρ c, at4_arg5 m ρ c] at e
  exact h.trans (e.trans ((Cert.Gnn.Link.mm_eq _ _).trans rfl))

theorem at5_v1 : W5 m ρ c (Proc.devRef .tc main_v1) = (Cert.ReferenceIdeal.Read.val_main_v1 (F := Ideal) (m ((c : Thread nD τ).loc main_arg1))) := by
  have h4 := (W5_of_ne m ρ c main_v1 (by decide) : W5 m ρ c (Proc.devRef .tc main_v1) = W4 m ρ c (Proc.devRef .tc main_v1))
  have h3 := (W4_of_ne m ρ c main_v1 (by decide) : W4 m ρ c (Proc.devRef .tc main_v1) = W3 m ρ c (Proc.devRef .tc main_v1))
  have h2 := (by host_kept hostOps1 : W3 m ρ c (Proc.devRef .tc main_v1) = W2 m ρ c (Proc.devRef .tc main_v1))
  exact h4.trans (h3.trans (h2.trans (at2_v1 m ρ c)))

theorem at5_v3 : W5 m ρ c (Proc.devRef .tc main_v3) = (Cert.ReferenceIdeal.Read.val_main_v3 (F := Ideal) (m ((c : Thread nD τ).loc main_arg1))) := by
  have h4 := (W5_of_ne m ρ c main_v3 (by decide) : W5 m ρ c (Proc.devRef .tc main_v3) = W4 m ρ c (Proc.devRef .tc main_v3))
  have h3 := (W4_of_ne m ρ c main_v3 (by decide) : W4 m ρ c (Proc.devRef .tc main_v3) = W3 m ρ c (Proc.devRef .tc main_v3))
  have h2 := (by host_kept hostOps1 : W3 m ρ c (Proc.devRef .tc main_v3) = W2 m ρ c (Proc.devRef .tc main_v3))
  exact h4.trans (h3.trans (h2.trans (at2_v3 m ρ c)))

theorem at5_v10 : W5 m ρ c (Proc.devRef .tc main_v10) = (Cert.ReferenceIdeal.Read.val_main_v10 (F := Ideal) (m ((c : Thread nD τ).loc main_arg1))) := by
  have h4 := (W5_of_ne m ρ c main_v10 (by decide) : W5 m ρ c (Proc.devRef .tc main_v10) = W4 m ρ c (Proc.devRef .tc main_v10))
  have h3 := (W4_of_ne m ρ c main_v10 (by decide) : W4 m ρ c (Proc.devRef .tc main_v10) = W3 m ρ c (Proc.devRef .tc main_v10))
  have h2 := (by host_kept hostOps1 : W3 m ρ c (Proc.devRef .tc main_v10) = W2 m ρ c (Proc.devRef .tc main_v10))
  exact h4.trans (h3.trans (h2.trans (at2_v10 m ρ c)))

set_option maxHeartbeats 4000000 in
theorem at6_v71 : W6 m ρ c (Proc.devRef .tc main_v71) = (Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  dsimp only [W6, hostOps3]
  after_results_simp
  rw [at5_v43 m ρ c, at5_v10 m ρ c, at5_v1 m ρ c, at5_v3 m ρ c]
  rfl

theorem at6_v43 : W6 m ρ c (Proc.devRef .tc main_v43) = (Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  have h5 := (by host_kept hostOps3 : W6 m ρ c (Proc.devRef .tc main_v43) = W5 m ρ c (Proc.devRef .tc main_v43))
  exact h5.trans (at5_v43 m ρ c)

theorem at6_v12 : W6 m ρ c (Proc.devRef .tc main_v12) = (selfScale (Cert.ReferenceIdeal.Read.val_main_v10 (F := Ideal) (m ((c : Thread nD τ).loc main_arg1)))) := by
  have h5 := (by host_kept hostOps3 : W6 m ρ c (Proc.devRef .tc main_v12) = W5 m ρ c (Proc.devRef .tc main_v12))
  have h4 := (W5_of_ne m ρ c main_v12 (by decide) : W5 m ρ c (Proc.devRef .tc main_v12) = W4 m ρ c (Proc.devRef .tc main_v12))
  have h3 := ((W4_arr m ρ c 2).trans (((dat1 (V3 m ρ) c).arrAt_in 2 rfl _).trans (A_eq1 (V3 m ρ) c 2)) : W4 m ρ c (Proc.devRef .tc main_v12) = W3 m ρ c (Proc.devRef .tc main_v12))
  exact h5.trans (h4.trans (h3.trans (at3_v12 m ρ c)))

theorem at6_arg6 : W6 m ρ c (Proc.devRef .tc main_arg6) = (m ((c : Thread nD τ).loc main_arg6)) := by
  have h5 := (by host_kept hostOps3 : W6 m ρ c (Proc.devRef .tc main_arg6) = W5 m ρ c (Proc.devRef .tc main_arg6))
  have h4 := (W5_of_ne m ρ c main_arg6 (by decide) : W5 m ρ c (Proc.devRef .tc main_arg6) = W4 m ρ c (Proc.devRef .tc main_arg6))
  have h3 := (W4_of_ne m ρ c main_arg6 (by decide) : W4 m ρ c (Proc.devRef .tc main_arg6) = W3 m ρ c (Proc.devRef .tc main_arg6))
  have h2 := (by host_kept hostOps1 : W3 m ρ c (Proc.devRef .tc main_arg6) = W2 m ρ c (Proc.devRef .tc main_arg6))
  have h1 := (W2_of_ne m ρ c main_arg6 (by decide) : W2 m ρ c (Proc.devRef .tc main_arg6) = W1 m ρ c (Proc.devRef .tc main_arg6))
  have h0 := (by host_kept hostOps0 : W1 m ρ c (Proc.devRef .tc main_arg6) = W0 m ρ c (Proc.devRef .tc main_arg6))
  exact h5.trans (h4.trans (h3.trans (h2.trans (h1.trans (h0.trans (at0_arg6 m ρ c))))))

theorem at7_v72 : W7 m ρ c (Proc.devRef .tc main_v72) = (Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  have h := W7_arr m ρ c 4
  have e : (dat3 (F := Ideal) (V6 m ρ) c).arrAt 4 cfg3.N = Cert.Gnn.combRelu (W6 m ρ c (Proc.devRef .tc main_v71)) (W6 m ρ c (Proc.devRef .tc main_v43)) (W6 m ρ c (Proc.devRef .tc main_v12)) (W6 m ρ c (Proc.devRef .tc main_arg6)) := Reg.final3 (V6 m ρ) c
  rw [at6_v71 m ρ c, at6_v43 m ρ c, at6_v12 m ρ c, at6_arg6 m ρ c] at e
  exact h.trans (e.trans (Cert.Gnn.Link.comb2_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) _ (selfScale_apply _)))

theorem at7_arg7 : W7 m ρ c (Proc.devRef .tc main_arg7) = (m ((c : Thread nD τ).loc main_arg7)) := by
  have h6 := (W7_of_ne m ρ c main_arg7 (by decide) : W7 m ρ c (Proc.devRef .tc main_arg7) = W6 m ρ c (Proc.devRef .tc main_arg7))
  have h5 := (by host_kept hostOps3 : W6 m ρ c (Proc.devRef .tc main_arg7) = W5 m ρ c (Proc.devRef .tc main_arg7))
  have h4 := (W5_of_ne m ρ c main_arg7 (by decide) : W5 m ρ c (Proc.devRef .tc main_arg7) = W4 m ρ c (Proc.devRef .tc main_arg7))
  have h3 := (W4_of_ne m ρ c main_arg7 (by decide) : W4 m ρ c (Proc.devRef .tc main_arg7) = W3 m ρ c (Proc.devRef .tc main_arg7))
  have h2 := (by host_kept hostOps1 : W3 m ρ c (Proc.devRef .tc main_arg7) = W2 m ρ c (Proc.devRef .tc main_arg7))
  have h1 := (W2_of_ne m ρ c main_arg7 (by decide) : W2 m ρ c (Proc.devRef .tc main_arg7) = W1 m ρ c (Proc.devRef .tc main_arg7))
  have h0 := (by host_kept hostOps0 : W1 m ρ c (Proc.devRef .tc main_arg7) = W0 m ρ c (Proc.devRef .tc main_arg7))
  exact h6.trans (h5.trans (h4.trans (h3.trans (h2.trans (h1.trans (h0.trans (at0_arg7 m ρ c)))))))

theorem at8_v73 : W8 m ρ c (Proc.devRef .tc main_v73) = (Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  have h := W8_arr m ρ c 2
  have e : (dat4 (F := Ideal) (V7 m ρ) c).arrAt 2 cfg4.N = Cert.Gnn.mm (W7 m ρ c (Proc.devRef .tc main_v72)) (W7 m ρ c (Proc.devRef .tc main_arg7)) := Reg.final4 (V7 m ρ) c
  rw [at7_v72 m ρ c, at7_arg7 m ρ c] at e
  exact h.trans (e.trans ((Cert.Gnn.Link.mm_eq _ _).trans rfl))

theorem at8_v1 : W8 m ρ c (Proc.devRef .tc main_v1) = (Cert.ReferenceIdeal.Read.val_main_v1 (F := Ideal) (m ((c : Thread nD τ).loc main_arg1))) := by
  have h7 := (W8_of_ne m ρ c main_v1 (by decide) : W8 m ρ c (Proc.devRef .tc main_v1) = W7 m ρ c (Proc.devRef .tc main_v1))
  have h6 := (W7_of_ne m ρ c main_v1 (by decide) : W7 m ρ c (Proc.devRef .tc main_v1) = W6 m ρ c (Proc.devRef .tc main_v1))
  have h5 := (by host_kept hostOps3 : W6 m ρ c (Proc.devRef .tc main_v1) = W5 m ρ c (Proc.devRef .tc main_v1))
  exact h7.trans (h6.trans (h5.trans (at5_v1 m ρ c)))

theorem at8_v3 : W8 m ρ c (Proc.devRef .tc main_v3) = (Cert.ReferenceIdeal.Read.val_main_v3 (F := Ideal) (m ((c : Thread nD τ).loc main_arg1))) := by
  have h7 := (W8_of_ne m ρ c main_v3 (by decide) : W8 m ρ c (Proc.devRef .tc main_v3) = W7 m ρ c (Proc.devRef .tc main_v3))
  have h6 := (W7_of_ne m ρ c main_v3 (by decide) : W7 m ρ c (Proc.devRef .tc main_v3) = W6 m ρ c (Proc.devRef .tc main_v3))
  have h5 := (by host_kept hostOps3 : W6 m ρ c (Proc.devRef .tc main_v3) = W5 m ρ c (Proc.devRef .tc main_v3))
  exact h7.trans (h6.trans (h5.trans (at5_v3 m ρ c)))

theorem at8_v10 : W8 m ρ c (Proc.devRef .tc main_v10) = (Cert.ReferenceIdeal.Read.val_main_v10 (F := Ideal) (m ((c : Thread nD τ).loc main_arg1))) := by
  have h7 := (W8_of_ne m ρ c main_v10 (by decide) : W8 m ρ c (Proc.devRef .tc main_v10) = W7 m ρ c (Proc.devRef .tc main_v10))
  have h6 := (W7_of_ne m ρ c main_v10 (by decide) : W7 m ρ c (Proc.devRef .tc main_v10) = W6 m ρ c (Proc.devRef .tc main_v10))
  have h5 := (by host_kept hostOps3 : W6 m ρ c (Proc.devRef .tc main_v10) = W5 m ρ c (Proc.devRef .tc main_v10))
  exact h7.trans (h6.trans (h5.trans (at5_v10 m ρ c)))

set_option maxHeartbeats 4000000 in
theorem at9_v101 : W9 m ρ c (Proc.devRef .tc main_v101) = (Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [W9, hostOps5]
  after_results_simp
  rw [at8_v73 m ρ c, at8_v10 m ρ c, at8_v1 m ρ c, at8_v3 m ρ c]
  rfl

theorem at9_v73 : W9 m ρ c (Proc.devRef .tc main_v73) = (Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  have h8 := (by host_kept hostOps5 : W9 m ρ c (Proc.devRef .tc main_v73) = W8 m ρ c (Proc.devRef .tc main_v73))
  exact h8.trans (at8_v73 m ρ c)

theorem at9_v12 : W9 m ρ c (Proc.devRef .tc main_v12) = (selfScale (Cert.ReferenceIdeal.Read.val_main_v10 (F := Ideal) (m ((c : Thread nD τ).loc main_arg1)))) := by
  have h8 := (by host_kept hostOps5 : W9 m ρ c (Proc.devRef .tc main_v12) = W8 m ρ c (Proc.devRef .tc main_v12))
  have h7 := (W8_of_ne m ρ c main_v12 (by decide) : W8 m ρ c (Proc.devRef .tc main_v12) = W7 m ρ c (Proc.devRef .tc main_v12))
  have h6 := ((W7_arr m ρ c 2).trans (((dat3 (V6 m ρ) c).arrAt_in 2 rfl _).trans (A_eq3 (V6 m ρ) c 2)) : W7 m ρ c (Proc.devRef .tc main_v12) = W6 m ρ c (Proc.devRef .tc main_v12))
  exact h8.trans (h7.trans (h6.trans (at6_v12 m ρ c)))

theorem at9_arg8 : W9 m ρ c (Proc.devRef .tc main_arg8) = (m ((c : Thread nD τ).loc main_arg8)) := by
  have h8 := (by host_kept hostOps5 : W9 m ρ c (Proc.devRef .tc main_arg8) = W8 m ρ c (Proc.devRef .tc main_arg8))
  have h7 := (W8_of_ne m ρ c main_arg8 (by decide) : W8 m ρ c (Proc.devRef .tc main_arg8) = W7 m ρ c (Proc.devRef .tc main_arg8))
  have h6 := (W7_of_ne m ρ c main_arg8 (by decide) : W7 m ρ c (Proc.devRef .tc main_arg8) = W6 m ρ c (Proc.devRef .tc main_arg8))
  have h5 := (by host_kept hostOps3 : W6 m ρ c (Proc.devRef .tc main_arg8) = W5 m ρ c (Proc.devRef .tc main_arg8))
  have h4 := (W5_of_ne m ρ c main_arg8 (by decide) : W5 m ρ c (Proc.devRef .tc main_arg8) = W4 m ρ c (Proc.devRef .tc main_arg8))
  have h3 := (W4_of_ne m ρ c main_arg8 (by decide) : W4 m ρ c (Proc.devRef .tc main_arg8) = W3 m ρ c (Proc.devRef .tc main_arg8))
  have h2 := (by host_kept hostOps1 : W3 m ρ c (Proc.devRef .tc main_arg8) = W2 m ρ c (Proc.devRef .tc main_arg8))
  have h1 := (W2_of_ne m ρ c main_arg8 (by decide) : W2 m ρ c (Proc.devRef .tc main_arg8) = W1 m ρ c (Proc.devRef .tc main_arg8))
  have h0 := (by host_kept hostOps0 : W1 m ρ c (Proc.devRef .tc main_arg8) = W0 m ρ c (Proc.devRef .tc main_arg8))
  exact h8.trans (h7.trans (h6.trans (h5.trans (h4.trans (h3.trans (h2.trans (h1.trans (h0.trans (at0_arg8 m ρ c)))))))))

theorem at10_v102 : W10 m ρ c (Proc.devRef .tc main_v102) = (Cert.ReferenceIdeal.Read.val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h := W10_arr m ρ c 4
  have e : (dat5 (F := Ideal) (V9 m ρ) c).arrAt 4 cfg5.N = Cert.Gnn.comb (W9 m ρ c (Proc.devRef .tc main_v101)) (W9 m ρ c (Proc.devRef .tc main_v73)) (W9 m ρ c (Proc.devRef .tc main_v12)) (W9 m ρ c (Proc.devRef .tc main_arg8)) := Reg.final5 (V9 m ρ) c
  rw [at9_v101 m ρ c, at9_v73 m ρ c, at9_v12 m ρ c, at9_arg8 m ρ c] at e
  exact h.trans (e.trans (Cert.Gnn.Link.comb3_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ (selfScale_apply _)))

theorem at11_v103 : W11 m ρ c (Proc.devRef .tc main_v103) = (Cert.ReferenceIdeal.Read.val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h := W11_arr m ρ c 1
  have e : (dat6 (F := Ideal) (V10 m ρ) c).arrAt 1 cfg6.N = Cert.Gnn.signedSquare (W10 m ρ c (Proc.devRef .tc main_v102)) := Reg.final6 (V10 m ρ) c
  rw [at10_v102 m ρ c] at e
  exact h.trans (e.trans (Cert.Gnn.Link.pow_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))

theorem at11_arg2 : W11 m ρ c (Proc.devRef .tc main_arg2) = (m ((c : Thread nD τ).loc main_arg2)) := by
  have h10 := (W11_of_ne m ρ c main_arg2 (by decide) : W11 m ρ c (Proc.devRef .tc main_arg2) = W10 m ρ c (Proc.devRef .tc main_arg2))
  have h9 := (W10_of_ne m ρ c main_arg2 (by decide) : W10 m ρ c (Proc.devRef .tc main_arg2) = W9 m ρ c (Proc.devRef .tc main_arg2))
  have h8 := (by host_kept hostOps5 : W9 m ρ c (Proc.devRef .tc main_arg2) = W8 m ρ c (Proc.devRef .tc main_arg2))
  have h7 := (W8_of_ne m ρ c main_arg2 (by decide) : W8 m ρ c (Proc.devRef .tc main_arg2) = W7 m ρ c (Proc.devRef .tc main_arg2))
  have h6 := (W7_of_ne m ρ c main_arg2 (by decide) : W7 m ρ c (Proc.devRef .tc main_arg2) = W6 m ρ c (Proc.devRef .tc main_arg2))
  have h5 := (by host_kept hostOps3 : W6 m ρ c (Proc.devRef .tc main_arg2) = W5 m ρ c (Proc.devRef .tc main_arg2))
  have h4 := (W5_of_ne m ρ c main_arg2 (by decide) : W5 m ρ c (Proc.devRef .tc main_arg2) = W4 m ρ c (Proc.devRef .tc main_arg2))
  have h3 := (W4_of_ne m ρ c main_arg2 (by decide) : W4 m ρ c (Proc.devRef .tc main_arg2) = W3 m ρ c (Proc.devRef .tc main_arg2))
  have h2 := (by host_kept hostOps1 : W3 m ρ c (Proc.devRef .tc main_arg2) = W2 m ρ c (Proc.devRef .tc main_arg2))
  have h1 := (W2_of_ne m ρ c main_arg2 (by decide) : W2 m ρ c (Proc.devRef .tc main_arg2) = W1 m ρ c (Proc.devRef .tc main_arg2))
  have h0 := (by host_kept hostOps0 : W1 m ρ c (Proc.devRef .tc main_arg2) = W0 m ρ c (Proc.devRef .tc main_arg2))
  exact h10.trans (h9.trans (h8.trans (h7.trans (h6.trans (h5.trans (h4.trans (h3.trans (h2.trans (h1.trans (h0.trans (at0_arg2 m ρ c)))))))))))

set_option maxHeartbeats 4000000 in
theorem at13_v123 : W13 m ρ c (Proc.devRef .tc main_v123) = (Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  dsimp only [W13, W12, hostOps7_1, hostOps7]
  after_results_simp
  rw [at11_v103 m ρ c, at11_arg2 m ρ c]
  rfl

theorem at13_arg9 : W13 m ρ c (Proc.devRef .tc main_arg9) = (m ((c : Thread nD τ).loc main_arg9)) := by
  have h12 := (by host_kept hostOps7_1 : W13 m ρ c (Proc.devRef .tc main_arg9) = W12 m ρ c (Proc.devRef .tc main_arg9))
  have h11 := (by host_kept hostOps7 : W12 m ρ c (Proc.devRef .tc main_arg9) = W11 m ρ c (Proc.devRef .tc main_arg9))
  have h10 := (W11_of_ne m ρ c main_arg9 (by decide) : W11 m ρ c (Proc.devRef .tc main_arg9) = W10 m ρ c (Proc.devRef .tc main_arg9))
  have h9 := (W10_of_ne m ρ c main_arg9 (by decide) : W10 m ρ c (Proc.devRef .tc main_arg9) = W9 m ρ c (Proc.devRef .tc main_arg9))
  have h8 := (by host_kept hostOps5 : W9 m ρ c (Proc.devRef .tc main_arg9) = W8 m ρ c (Proc.devRef .tc main_arg9))
  have h7 := (W8_of_ne m ρ c main_arg9 (by decide) : W8 m ρ c (Proc.devRef .tc main_arg9) = W7 m ρ c (Proc.devRef .tc main_arg9))
  have h6 := (W7_of_ne m ρ c main_arg9 (by decide) : W7 m ρ c (Proc.devRef .tc main_arg9) = W6 m ρ c (Proc.devRef .tc main_arg9))
  have h5 := (by host_kept hostOps3 : W6 m ρ c (Proc.devRef .tc main_arg9) = W5 m ρ c (Proc.devRef .tc main_arg9))
  have h4 := (W5_of_ne m ρ c main_arg9 (by decide) : W5 m ρ c (Proc.devRef .tc main_arg9) = W4 m ρ c (Proc.devRef .tc main_arg9))
  have h3 := (W4_of_ne m ρ c main_arg9 (by decide) : W4 m ρ c (Proc.devRef .tc main_arg9) = W3 m ρ c (Proc.devRef .tc main_arg9))
  have h2 := (by host_kept hostOps1 : W3 m ρ c (Proc.devRef .tc main_arg9) = W2 m ρ c (Proc.devRef .tc main_arg9))
  have h1 := (W2_of_ne m ρ c main_arg9 (by decide) : W2 m ρ c (Proc.devRef .tc main_arg9) = W1 m ρ c (Proc.devRef .tc main_arg9))
  have h0 := (by host_kept hostOps0 : W1 m ρ c (Proc.devRef .tc main_arg9) = W0 m ρ c (Proc.devRef .tc main_arg9))
  exact h12.trans (h11.trans (h10.trans (h9.trans (h8.trans (h7.trans (h6.trans (h5.trans (h4.trans (h3.trans (h2.trans (h1.trans (h0.trans (at0_arg9 m ρ c)))))))))))))

theorem at13_arg10 : W13 m ρ c (Proc.devRef .tc main_arg10) = (m ((c : Thread nD τ).loc main_arg10)) := by
  have h12 := (by host_kept hostOps7_1 : W13 m ρ c (Proc.devRef .tc main_arg10) = W12 m ρ c (Proc.devRef .tc main_arg10))
  have h11 := (by host_kept hostOps7 : W12 m ρ c (Proc.devRef .tc main_arg10) = W11 m ρ c (Proc.devRef .tc main_arg10))
  have h10 := (W11_of_ne m ρ c main_arg10 (by decide) : W11 m ρ c (Proc.devRef .tc main_arg10) = W10 m ρ c (Proc.devRef .tc main_arg10))
  have h9 := (W10_of_ne m ρ c main_arg10 (by decide) : W10 m ρ c (Proc.devRef .tc main_arg10) = W9 m ρ c (Proc.devRef .tc main_arg10))
  have h8 := (by host_kept hostOps5 : W9 m ρ c (Proc.devRef .tc main_arg10) = W8 m ρ c (Proc.devRef .tc main_arg10))
  have h7 := (W8_of_ne m ρ c main_arg10 (by decide) : W8 m ρ c (Proc.devRef .tc main_arg10) = W7 m ρ c (Proc.devRef .tc main_arg10))
  have h6 := (W7_of_ne m ρ c main_arg10 (by decide) : W7 m ρ c (Proc.devRef .tc main_arg10) = W6 m ρ c (Proc.devRef .tc main_arg10))
  have h5 := (by host_kept hostOps3 : W6 m ρ c (Proc.devRef .tc main_arg10) = W5 m ρ c (Proc.devRef .tc main_arg10))
  have h4 := (W5_of_ne m ρ c main_arg10 (by decide) : W5 m ρ c (Proc.devRef .tc main_arg10) = W4 m ρ c (Proc.devRef .tc main_arg10))
  have h3 := (W4_of_ne m ρ c main_arg10 (by decide) : W4 m ρ c (Proc.devRef .tc main_arg10) = W3 m ρ c (Proc.devRef .tc main_arg10))
  have h2 := (by host_kept hostOps1 : W3 m ρ c (Proc.devRef .tc main_arg10) = W2 m ρ c (Proc.devRef .tc main_arg10))
  have h1 := (W2_of_ne m ρ c main_arg10 (by decide) : W2 m ρ c (Proc.devRef .tc main_arg10) = W1 m ρ c (Proc.devRef .tc main_arg10))
  have h0 := (by host_kept hostOps0 : W1 m ρ c (Proc.devRef .tc main_arg10) = W0 m ρ c (Proc.devRef .tc main_arg10))
  exact h12.trans (h11.trans (h10.trans (h9.trans (h8.trans (h7.trans (h6.trans (h5.trans (h4.trans (h3.trans (h2.trans (h1.trans (h0.trans (at0_arg10 m ρ c)))))))))))))

theorem at14_v124 : W14 m ρ c (Proc.devRef .tc main_v124) = (Cert.ReferenceIdeal.Read.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h := W14_arr m ρ c 3
  have e : (dat7 (F := Ideal) (V13 m ρ) c).arrAt 3 cfg7.N = Cert.Gnn.dense (W13 m ρ c (Proc.devRef .tc main_v123)) (W13 m ρ c (Proc.devRef .tc main_arg9)) (W13 m ρ c (Proc.devRef .tc main_arg10)) := Reg.final7 (V13 m ρ) c
  rw [at13_v123 m ρ c, at13_arg9 m ρ c, at13_arg10 m ρ c] at e
  exact h.trans (e.trans (Cert.Gnn.Link.dense_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))

theorem at14_arg11 : W14 m ρ c (Proc.devRef .tc main_arg11) = (m ((c : Thread nD τ).loc main_arg11)) := by
  have h13 := (W14_of_ne m ρ c main_arg11 (by decide) : W14 m ρ c (Proc.devRef .tc main_arg11) = W13 m ρ c (Proc.devRef .tc main_arg11))
  have h12 := (by host_kept hostOps7_1 : W13 m ρ c (Proc.devRef .tc main_arg11) = W12 m ρ c (Proc.devRef .tc main_arg11))
  have h11 := (by host_kept hostOps7 : W12 m ρ c (Proc.devRef .tc main_arg11) = W11 m ρ c (Proc.devRef .tc main_arg11))
  have h10 := (W11_of_ne m ρ c main_arg11 (by decide) : W11 m ρ c (Proc.devRef .tc main_arg11) = W10 m ρ c (Proc.devRef .tc main_arg11))
  have h9 := (W10_of_ne m ρ c main_arg11 (by decide) : W10 m ρ c (Proc.devRef .tc main_arg11) = W9 m ρ c (Proc.devRef .tc main_arg11))
  have h8 := (by host_kept hostOps5 : W9 m ρ c (Proc.devRef .tc main_arg11) = W8 m ρ c (Proc.devRef .tc main_arg11))
  have h7 := (W8_of_ne m ρ c main_arg11 (by decide) : W8 m ρ c (Proc.devRef .tc main_arg11) = W7 m ρ c (Proc.devRef .tc main_arg11))
  have h6 := (W7_of_ne m ρ c main_arg11 (by decide) : W7 m ρ c (Proc.devRef .tc main_arg11) = W6 m ρ c (Proc.devRef .tc main_arg11))
  have h5 := (by host_kept hostOps3 : W6 m ρ c (Proc.devRef .tc main_arg11) = W5 m ρ c (Proc.devRef .tc main_arg11))
  have h4 := (W5_of_ne m ρ c main_arg11 (by decide) : W5 m ρ c (Proc.devRef .tc main_arg11) = W4 m ρ c (Proc.devRef .tc main_arg11))
  have h3 := (W4_of_ne m ρ c main_arg11 (by decide) : W4 m ρ c (Proc.devRef .tc main_arg11) = W3 m ρ c (Proc.devRef .tc main_arg11))
  have h2 := (by host_kept hostOps1 : W3 m ρ c (Proc.devRef .tc main_arg11) = W2 m ρ c (Proc.devRef .tc main_arg11))
  have h1 := (W2_of_ne m ρ c main_arg11 (by decide) : W2 m ρ c (Proc.devRef .tc main_arg11) = W1 m ρ c (Proc.devRef .tc main_arg11))
  have h0 := (by host_kept hostOps0 : W1 m ρ c (Proc.devRef .tc main_arg11) = W0 m ρ c (Proc.devRef .tc main_arg11))
  exact h13.trans (h12.trans (h11.trans (h10.trans (h9.trans (h8.trans (h7.trans (h6.trans (h5.trans (h4.trans (h3.trans (h2.trans (h1.trans (h0.trans (at0_arg11 m ρ c))))))))))))))

theorem at14_arg12 : W14 m ρ c (Proc.devRef .tc main_arg12) = (m ((c : Thread nD τ).loc main_arg12)) := by
  have h13 := (W14_of_ne m ρ c main_arg12 (by decide) : W14 m ρ c (Proc.devRef .tc main_arg12) = W13 m ρ c (Proc.devRef .tc main_arg12))
  have h12 := (by host_kept hostOps7_1 : W13 m ρ c (Proc.devRef .tc main_arg12) = W12 m ρ c (Proc.devRef .tc main_arg12))
  have h11 := (by host_kept hostOps7 : W12 m ρ c (Proc.devRef .tc main_arg12) = W11 m ρ c (Proc.devRef .tc main_arg12))
  have h10 := (W11_of_ne m ρ c main_arg12 (by decide) : W11 m ρ c (Proc.devRef .tc main_arg12) = W10 m ρ c (Proc.devRef .tc main_arg12))
  have h9 := (W10_of_ne m ρ c main_arg12 (by decide) : W10 m ρ c (Proc.devRef .tc main_arg12) = W9 m ρ c (Proc.devRef .tc main_arg12))
  have h8 := (by host_kept hostOps5 : W9 m ρ c (Proc.devRef .tc main_arg12) = W8 m ρ c (Proc.devRef .tc main_arg12))
  have h7 := (W8_of_ne m ρ c main_arg12 (by decide) : W8 m ρ c (Proc.devRef .tc main_arg12) = W7 m ρ c (Proc.devRef .tc main_arg12))
  have h6 := (W7_of_ne m ρ c main_arg12 (by decide) : W7 m ρ c (Proc.devRef .tc main_arg12) = W6 m ρ c (Proc.devRef .tc main_arg12))
  have h5 := (by host_kept hostOps3 : W6 m ρ c (Proc.devRef .tc main_arg12) = W5 m ρ c (Proc.devRef .tc main_arg12))
  have h4 := (W5_of_ne m ρ c main_arg12 (by decide) : W5 m ρ c (Proc.devRef .tc main_arg12) = W4 m ρ c (Proc.devRef .tc main_arg12))
  have h3 := (W4_of_ne m ρ c main_arg12 (by decide) : W4 m ρ c (Proc.devRef .tc main_arg12) = W3 m ρ c (Proc.devRef .tc main_arg12))
  have h2 := (by host_kept hostOps1 : W3 m ρ c (Proc.devRef .tc main_arg12) = W2 m ρ c (Proc.devRef .tc main_arg12))
  have h1 := (W2_of_ne m ρ c main_arg12 (by decide) : W2 m ρ c (Proc.devRef .tc main_arg12) = W1 m ρ c (Proc.devRef .tc main_arg12))
  have h0 := (by host_kept hostOps0 : W1 m ρ c (Proc.devRef .tc main_arg12) = W0 m ρ c (Proc.devRef .tc main_arg12))
  exact h13.trans (h12.trans (h11.trans (h10.trans (h9.trans (h8.trans (h7.trans (h6.trans (h5.trans (h4.trans (h3.trans (h2.trans (h1.trans (h0.trans (at0_arg12 m ρ c))))))))))))))

theorem at15_v125 : W15 m ρ c (Proc.devRef .tc main_v125) = (Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have h := W15_arr m ρ c 3
  have e : (dat8 (F := Ideal) (V14 m ρ) c).arrAt 3 cfg8.N = Cert.Gnn.affineOut (W14 m ρ c (Proc.devRef .tc main_v124)) (W14 m ρ c (Proc.devRef .tc main_arg11)) (W14 m ρ c (Proc.devRef .tc main_arg12)) := Reg.final8 (V14 m ρ) c
  rw [at14_v124 m ρ c, at14_arg11 m ρ c, at14_arg12 m ρ c] at e
  exact h.trans (e.trans (Cert.Gnn.Link.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))

end Cert.KernelIdeal.Chain

end
-- ==== Proof.Algebraic.lean ====
/-
  The two idealized programs end with the same result.

  The idealized kernel's result buffer ends at the last boundary's contents, which the chain through the program's
  fifteen segments identifies with the reference's result stage as a function of the kernel's launch arguments.  The
  reference's generated run ends at the same stage as a function of its own arguments, and the two memories agree
  on the arguments.  No step uses that the inputs are finite: each region computes, entry by entry, the very
  arithmetic of the reference's host operations, and the host stretches between the regions are the reference's own.
-/
import proofs.«142938_j78829829750856_1_alg».proof.Defs
import proofs.«142938_j78829829750856_1_alg».proof.Proof.Gen.KernelIdeal
import proofs.«142938_j78829829750856_1_alg».proof.Proof.Gen.ReferenceIdeal
import proofs.«142938_j78829829750856_1_alg».proof.Proof.Gen.Pre_finite_inputs
import proofs.«142938_j78829829750856_1_alg».proof.Proof.Gen.ReferenceIdeal.Run
import proofs.«142938_j78829829750856_1_alg».proof.Proof.Gen.ReferenceIdeal.Read
import proofs.«142938_j78829829750856_1_alg».proof.Proof.KernelRun
import proofs.«142938_j78829829750856_1_alg».proof.Proof.Chain

set_option maxRecDepth 16384

noncomputable section

namespace Cert.Proof.Parts

open Idealize.ShloMosaic Idealize.ShloMosaic.TcCoe Idealize.SL.Sem

/-- The idealized kernel's run with its result at the reference's result stage of the kernel's own arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v125) = (Cert.ReferenceIdeal.Read.val_main_v159 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun r h c => ⟨(h c).1.trans (Cert.KernelIdeal.Chain.at15_v125 m ρ c), (h c).2⟩)
    (Cert.KernelIdeal.Launched.run (F := Ideal) m ρ)

/-- Run from memories that agree on the arguments, the idealized kernel and the idealized reference end with the
    same result, and each leaves its arguments unchanged. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v159_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

end Cert.Proof.Parts

end
-- ==== Proof.lean ====
/-
  A graph network's forward pass on the device equals its plain array reference, over the extended reals.

  The program takes 50000 nodes with 128 features, 800000 directed edges and a graph number per node.  Three graph
  convolutions follow one another: the features are multiplied by a weight matrix; every edge carries its source
  row, scaled by the inverse square roots of the two endpoint degrees, to its destination, where the messages are
  added up; the node's own row, scaled by the inverse of its degree, and a bias are added; the first two layers cut
  the result at zero.  Every entry x then becomes sign(x) · (|x| + ε)², the rows of each of 512 graphs are averaged,
  the average is taken back through sign(·) · (|·| + ε)^(1/2) and cut at zero, and two dense layers produce 64
  numbers per graph.

  The device program computes the three products, the three combine steps, the sign-keeping square and the two dense
  layers in nine regions over row blocks of 5000 (the two dense layers in one block), and leaves the gathers, the
  scatter-additions and the pooling to the same host operations the reference uses.  The two programs agree on
  every extended real, with no use of finiteness:
   * a region's output array is, entry by entry, the arithmetic of the reference's host operations — a tile product
     into a zero accumulator is the plain sum over the shared coordinate that the host's product is, since a change of
     float format is the identity here; a column or a row repeated over the block contributes the one entry of its
     row or column; exp(2 · log a) is a² for the positive a = |x| + ε and equally at a = +∞, and "1 with the sign of
     x where |x| > 0, else x" is the sign of x —, and its row blocks tile the array;
   * the host stretches between the regions are the reference's own operations applied to equal arrays, so they are
     carried as they stand and never opened.
  The word-level kernel's idealization replaced one reading of a sign bit by a comparison with zero; the rule's own
  statement is the remaining conjunct.
-/
import proofs.«142938_j78829829750856_1_alg».proof.Defs
import proofs.«142938_j78829829750856_1_alg».proof.Proof.Frames
import proofs.«142938_j78829829750856_1_alg».proof.Proof.Preserves
import proofs.«142938_j78829829750856_1_alg».proof.Proof.Algebraic
import Idealize.ShloMosaic.Adequacy
import Idealize.ShloMosaic.Init

noncomputable section

namespace Cert.Proof

open Idealize.ShloMosaic Idealize.SL.Sem

/-- The three programs run to the end without a fault and leave their arguments unchanged, the idealized kernel is the
    kernel's sanctioned idealization, and the idealized kernel and the idealized reference end with equal results. -/
theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_referenceIdeal, Parts.preserves, Parts.algebraic⟩

end Cert.Proof

end
